-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩
abbrev S1x1000000 : Shape := ⟨2, ![1, 1000000]⟩
abbrev S1000000 : Shape := ⟨1, ![1000000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x1000000_S1x1000000_1_0 : S2x1000000.Slices ![1, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg1 : IVec S2x1000000 32) (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : IVec S1x1000000 32 := (extractStridedSlice S1x1000000 ![1, 0] · slices_S2x1000000_S1x1000000_1_0) main_arg1
  let main_v45 : IVec S1000000 32 := shapeCast S1000000 main_v44 shapeCasts_S1x1000000_S1000000
  let main_c_16 : IVec S_ 32 := constantI S_ 32 0#32
  let main_v46 : IVec S1000000 32 := broadcastInDim S1000000 ![] bcast_S_S1000000 main_c_16
  let main_v47 : IVec S1000000 1 := cmpi .sge main_v45 main_v46
  let main_c_17 : IVec S_ 1 := constantI S_ 1 1#1
  let main_v48 : IVec S_ 1 := (fun x v => Host.reduce IntOp.andi x v reducesTo_S1000000_S_d0 h_S_) main_v47 main_c_17
  let main_v49 : IVec S_ 1 := andi main_v43 main_v48
  main_v49

def fn_part1 {F : FTy → Type} [FloatOps F] (main_arg1 : IVec S2x1000000 32) (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_v33

def fn {F : FTy → Type} [FloatOps F] (main_arg0 : FVec F S100000x128 .f32) (main_arg1 : IVec S2x1000000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_v13 main_v16
-- ==== Kernel.lean ====
abbrev S100000x128 : Shape := ⟨2, ![100000, 128]⟩
abbrev S2x1000000 : Shape := ⟨2, ![2, 1000000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1000000x64 : Shape := ⟨2, ![1000000, 64]⟩
abbrev S8000x64 : Shape := ⟨2, ![8000, 64]⟩
abbrev S8000x1 : Shape := ⟨2, ![8000, 1]⟩
abbrev S1x64 : Shape := ⟨2, ![1, 64]⟩
abbrev S10000x1 : Shape := ⟨2, ![10000, 1]⟩
abbrev S128x1 : Shape := ⟨2, ![128, 1]⟩
abbrev S1x1 : Shape := ⟨2, ![1, 1]⟩
abbrev S128 : Shape := ⟨1, ![128]⟩

abbrev nBuf : Space → Nat
  | .hbm => 123
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S_, .f32⟩
  | .hbm, ⟨26, _⟩ => ⟨S1000000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x64, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000, .f32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000, .f32⟩
  | .hbm, ⟨61, _⟩ => ⟨S1000000, .f32⟩
  | .hbm, ⟨62, _⟩ => ⟨S1000000x1, .f32⟩
  | .hbm, ⟨63, _⟩ => ⟨S1000000x64, .f32⟩
  | .hbm, ⟨64, _⟩ => ⟨S_, .f32⟩
  | .hbm, ⟨65, _⟩ => ⟨S100000x64, .f32⟩
  | .hbm, ⟨66, _⟩ => ⟨S1000000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1000000, .i32⟩
  | .hbm, ⟨73, _⟩ => ⟨S1000000, .i1⟩
  | .hbm, ⟨74, _⟩ => ⟨S_, .i32⟩
  | .hbm, ⟨75, _⟩ => ⟨S1000000, .i32⟩
  | .hbm, ⟨76, _⟩ => ⟨S1000000, .i32⟩
  | .hbm, ⟨77, _⟩ => ⟨S1000000, .i32⟩
  | .hbm, ⟨78, _⟩ => ⟨S1000000x1, .i32⟩
  | .hbm, ⟨79, _⟩ => ⟨S1000000x64, .f32⟩
  | .hbm, ⟨80, _⟩ => ⟨S_, .i32⟩
  | .hbm, ⟨81, _⟩ => ⟨S1000000, .i32⟩
  | .hbm, ⟨82, _⟩ => ⟨S1000000, .i1⟩
  | .hbm, ⟨83, _⟩ => ⟨S_, .i32⟩
  | .hbm, ⟨84, _⟩ => ⟨S1000000, .i32⟩
  | .hbm, ⟨85, _⟩ => ⟨S1000000, .i32⟩
  | .hbm, ⟨86, _⟩ => ⟨S1000000, .i32⟩
  | .hbm, ⟨87, _⟩ => ⟨S1000000x1, .i32⟩
  | .hbm, ⟨88, _⟩ => ⟨S1000000, .f32⟩
  | .hbm, ⟨89, _⟩ => ⟨S_, .i32⟩
  | .hbm, ⟨90, _⟩ => ⟨S1000000, .i32⟩
  | .hbm, ⟨91, _⟩ => ⟨S1000000, .i1⟩
  | .hbm, ⟨92, _⟩ => ⟨S_, .i32⟩
  | .hbm, ⟨93, _⟩ => ⟨S1000000, .i32⟩
  | .hbm, ⟨94, _⟩ => ⟨S1000000, .i32⟩
  | .hbm, ⟨95, _⟩ => ⟨S1000000, .i32⟩
  | .hbm, ⟨96, _⟩ => ⟨S1000000x1, .i32⟩
  | .hbm, ⟨97, _⟩ => ⟨S1000000, .f32⟩
  | .hbm, ⟨98, _⟩ => ⟨S1000000, .f32⟩
  | .hbm, ⟨99, _⟩ => ⟨S1000000x1, .f32⟩
  | .hbm, ⟨100, _⟩ => ⟨S1000000x64, .f32⟩
  | .hbm, ⟨101, _⟩ => ⟨S_, .f32⟩
  | .hbm, ⟨102, _⟩ => ⟨S100000x64, .f32⟩
  | .hbm, ⟨103, _⟩ => ⟨S1000000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S_, .f32⟩
  | .hbm, ⟨108, _⟩ => ⟨S128x64, .f32⟩
  | .hbm, ⟨109, _⟩ => ⟨S100000x1, .i32⟩
  | .hbm, ⟨110, _⟩ => ⟨S128x64, .f32⟩
  | .hbm, ⟨111, _⟩ => ⟨S128x64, .f32⟩
  | .hbm, ⟨112, _⟩ => ⟨S1x64, .f32⟩
  | .hbm, ⟨113, _⟩ => ⟨S128x64, .f32⟩
  | .hbm, ⟨114, _⟩ => ⟨S128x64, .f32⟩
  | .hbm, ⟨115, _⟩ => ⟨S_, .f32⟩
  | .hbm, ⟨116, _⟩ => ⟨S128x64, .f32⟩
  | .hbm, ⟨117, _⟩ => ⟨S128x64, .f32⟩
  | .hbm, ⟨118, _⟩ => ⟨S128x1, .f32⟩
  | .hbm, ⟨119, _⟩ => ⟨S1x1, .f32⟩
  | .hbm, ⟨120, _⟩ => ⟨S128x1, .f32⟩
  | .hbm, ⟨121, _⟩ => ⟨S128x1, .f32⟩
  | .hbm, ⟨122, _⟩ => ⟨S128, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S8000x64, .f32⟩
  | .local _ .vmem, ⟨6, _⟩ => ⟨S8000x64, .f32⟩
  | .local _ .vmem, ⟨7, _⟩ => ⟨S8000x1, .f32⟩
  | .local _ .vmem, ⟨8, _⟩ => ⟨S8000x1, .f32⟩
  | .local _ .vmem, ⟨9, _⟩ => ⟨S8000x64, .f32⟩
  | .local _ .vmem, ⟨10, _⟩ => ⟨S8000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x1, .f32⟩
  | .local _ .vmem, ⟨16, _⟩ => ⟨S10000x1, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S8000x64, .f32⟩
  | .local _ .vmem, ⟨26, _⟩ => ⟨S8000x64, .f32⟩
  | .local _ .vmem, ⟨27, _⟩ => ⟨S8000x1, .f32⟩
  | .local _ .vmem, ⟨28, _⟩ => ⟨S8000x1, .f32⟩
  | .local _ .vmem, ⟨29, _⟩ => ⟨S8000x64, .f32⟩
  | .local _ .vmem, ⟨30, _⟩ => ⟨S8000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x1, .f32⟩
  | .local _ .vmem, ⟨36, _⟩ => ⟨S10000x1, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_c_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_14 : Ref sig .tc := ⟨.hbm, 89, rfl⟩
abbrev main_v62 : Ref sig .tc := ⟨.hbm, 90, rfl⟩
abbrev main_v63 : Ref sig .tc := ⟨.hbm, 91, rfl⟩
abbrev main_c_15 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call0_cst : Ref sig .tc := ⟨.hbm, 115, rfl⟩
abbrev main_call0_v0 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S1000000_S1000000x1 : S1000000.ShapeCasts S1000000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S128x64 : S_.BroadcastsInDim S128x64 (![] : Fin 0 → Fin S128x64.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  scatter_S100000_S1000000x1_S1000000_n_0_0_1_wf : ScatterDims.WF S100000 S1000000x1 S1000000 [] [0] [0] 1
  dot_S10000x128_S128x64_S10000x64_1_0_0_1_n_n_wf : DotDims.WF S10000x128 S128x64 S10000x64 [1] [0] [0] [1] [] []
  gather_S100000x64_S1000000x1_S1000000x64_1_0_n_n_0_1_164_wf : GatherDims.WF S100000x64 S1000000x1 S1000000x64 [1] [0] [] [0] [] 1 ![1, 64]
  gather_S100000_S1000000x1_S1000000_n_0_n_n_0_1_1_wf : GatherDims.WF S100000 S1000000x1 S1000000 [] [0] [] [0] [] 1 ![1]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  scatter_S128x64_S100000x1_S100000x64_1_0_0_1_wf : ScatterDims.WF S128x64 S100000x1 S100000x64 [1] [0] [0] 1
  dot_S128x64_S64x64_S128x64_1_0_0_1_n_n_wf : DotDims.WF S128x64 S64x64 S128x64 [1] [0] [0] [1] [] []
  dot_S128x64_S64x1_S128x1_1_0_0_1_n_n_wf : DotDims.WF S128x64 S64x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1000000x64.size a
  hwx1_0 : ∀ i : grid1.Coords, EltTy.bits .f32 = 32 ∨ (Rect.block (s := S1000000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1000000x1.size a
  hwx1_1 : ∀ i : grid1.Coords, EltTy.bits .f32 = 32 ∨ (Rect.block (s := S1000000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1000000x64.size a
  hwx1_2 : ∀ i : grid1.Coords, EltTy.bits .f32 = 32 ∨ (Rect.block (s := S1000000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S1000000x64.size a
  hwx4_0 : ∀ i : grid4.Coords, EltTy.bits .f32 = 32 ∨ (Rect.block (s := S1000000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S1000000x1.size a
  hwx4_1 : ∀ i : grid4.Coords, EltTy.bits .f32 = 32 ∨ (Rect.block (s := S1000000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S1000000x64.size a
  hwx4_2 : ∀ i : grid4.Coords, EltTy.bits .f32 = 32 ∨ (Rect.block (s := S1000000x64) S8000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v46) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S8000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v47) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v16) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x64 : Shape := ⟨2, ![100000, 64]⟩
abbrev S1000000x64 : Shape := ⟨2, ![1000000, 64]⟩
abbrev S100000x1 : Shape := ⟨2, ![100000, 1]⟩
abbrev S1x64 : Shape := ⟨2, ![1, 64]⟩
abbrev S128x1 : Shape := ⟨2, ![128, 1]⟩
abbrev S1x1 : Shape := ⟨2, ![1, 1]⟩
abbrev S128 : Shape := ⟨1, ![128]⟩

abbrev nBuf : Space → Nat
  | .hbm => 153
  | .vmem => 0
  | .smem => 0
  | _ => 0

abbrev hbmTy0_0 (i : Nat) : BufTy := match i % 128 with
  | 0 => ⟨S100000x128, .f32⟩
  | 1 => ⟨S2x1000000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S1x1000000, .i32⟩
  | 12 => ⟨S1000000, .i32⟩
  | 13 => ⟨S1x1000000, .i32⟩
  | 14 => ⟨S1000000, .i32⟩
  | 15 => ⟨S_, .f32⟩
  | 16 => ⟨S100000, .f32⟩
  | 17 => ⟨S_, .f32⟩
  | 18 => ⟨S1000000, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S100000, .f32⟩
  | 28 => ⟨S100000, .f32⟩
  | 29 => ⟨S100000x64, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000, .f32⟩
  | 48 => ⟨S1000000, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x64, .f32⟩
  | 58 => ⟨S1000000x1, .f32⟩
  | 59 => ⟨S1000000x64, .f32⟩
  | 60 => ⟨S1000000x64, .f32⟩
  | 61 => ⟨S_, .f32⟩
  | 62 => ⟨S100000x64, .f32⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S1000000x1, .i32⟩
  | 71 => ⟨S100000x64, .f32⟩
  | 72 => ⟨S100000, .f32⟩
  | 73 => ⟨S100000x1, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000, .f32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000, .f32⟩
  | 102 => ⟨S1000000, .f32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000x64, .f32⟩
  | 112 => ⟨S1000000x1, .f32⟩
  | 113 => ⟨S1000000x64, .f32⟩
  | 114 => ⟨S1000000x64, .f32⟩
  | 115 => ⟨S_, .f32⟩
  | 116 => ⟨S100000x64, .f32⟩
  | 117 => ⟨S_, .i32⟩
  | 118 => ⟨S1000000, .i32⟩
  | 119 => ⟨S1000000, .i1⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S100000x64, .f32⟩
  | 126 => ⟨S100000, .f32⟩
  | 127 => ⟨S100000x1, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S_, .f32⟩
  | 10 => ⟨S128x64, .f32⟩
  | 11 => ⟨S100000x1, .i32⟩
  | 12 => ⟨S128x64, .f32⟩
  | 13 => ⟨S128x64, .f32⟩
  | 14 => ⟨S1x64, .f32⟩
  | 15 => ⟨S128x64, .f32⟩
  | 16 => ⟨S128x64, .f32⟩
  | 17 => ⟨S_, .f32⟩
  | 18 => ⟨S128x64, .f32⟩
  | 19 => ⟨S128x64, .f32⟩
  | 20 => ⟨S128x1, .f32⟩
  | 21 => ⟨S1x1, .f32⟩
  | 22 => ⟨S128x1, .f32⟩
  | 23 => ⟨S128x1, .f32⟩
  | 24 => ⟨S128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call0_cst : Ref sig .tc := ⟨.hbm, 80, rfl⟩
abbrev main_call0_v0 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_c_18 : Ref sig .tc := ⟨.hbm, 117, rfl⟩
abbrev main_v84 : Ref sig .tc := ⟨.hbm, 118, rfl⟩
abbrev main_v85 : Ref sig .tc := ⟨.hbm, 119, rfl⟩
abbrev main_c_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call1_cst : Ref sig .tc := ⟨.hbm, 134, rfl⟩
abbrev main_call1_v0 : Ref sig .tc := ⟨.hbm, 135, rfl⟩
abbrev main_v99 : Ref sig .tc := ⟨.hbm, 136, rfl⟩
abbrev main_cst_20 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_call2_cst : Ref sig .tc := ⟨.hbm, 145, rfl⟩
abbrev main_call2_v0 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S1x64_S128x64_0_1 : S1x64.BroadcastsInDim S128x64 (![0, 1] : Fin 2 → Fin S128x64.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  scatter_S100000_S1000000x1_S1000000_n_0_0_1_wf : ScatterDims.WF S100000 S1000000x1 S1000000 [] [0] [0] 1
  dot_S100000x128_S128x64_S100000x64_1_0_0_1_n_n_wf : DotDims.WF S100000x128 S128x64 S100000x64 [1] [0] [0] [1] [] []
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  dot_S128x64_S64x64_S128x64_1_0_0_1_n_n_wf : DotDims.WF S128x64 S64x64 S128x64 [1] [0] [0] [1] [] []
  dot_S128x64_S64x1_S128x1_1_0_0_1_n_n_wf : DotDims.WF S128x64 S64x1 S128x1 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

class Facts : Prop extends Facts₀ where

variable [Facts]
-- ==== Proof.TargetsNonNeg.lean ====
/-
  What the precondition says about the edge list. The precondition is a conjunction, over all inputs, of "every float
  entry is finite" and, last, "every entry of row 1 of the edge list — the target node of each edge — is at least
  zero" (a signed comparison with the zero vector, reduced by `and` over the 1000000 edges). The conjunction being
  true makes its last conjunct true, and an `and`-reduction that is true had a true at every edge.
-/
import proofs.«121682_j31825707663693_2_alg».proof.Pre_finite_inputs
import Idealize.ShloMosaic.Lib.ReduceAll
import Idealize.ShloMosaic.Lib.Affine
import Idealize.ShloMosaic.PureOps.Ideal

set_option maxRecDepth 16384

noncomputable section

namespace Cert.Gcn.TargetsNonNeg

open Idealize.ShloMosaic Cert.Pre_finite_inputs

variable [Cert.Pre_finite_inputs.Facts]
open Cert.Pre_finite_inputs.Facts

instance : Subsingleton S_.Idx := ⟨fun a b => funext fun d => d.elim0⟩

/-- Row 1 of the [2, 1000000] edge list as a vector of 1000000 words: the edges' target nodes. -/
def targets (ei : IVec S2x1000000 32) : IVec S1000000 32 :=
  shapeCast S1000000 (extractStridedSlice S1x1000000 ![1, 0] ei slices_S2x1000000_S1x1000000_1_0) shapeCasts_S1x1000000_S1000000

/-- Under the precondition every edge's target node is at least zero. -/
theorem targets_nonneg (a0 : FVec Ideal S100000x128 .f32) (a1 : IVec S2x1000000 32) (a2 : IVec S100000 32)
    (a3 : FVec Ideal S128x64 .f32) (a4 : FVec Ideal S64 .f32) (a5 : FVec Ideal S64x64 .f32) (a6 : FVec Ideal S64 .f32)
    (a7 : FVec Ideal S64x64 .f32) (a8 : FVec Ideal S64 .f32) (a9 : FVec Ideal S64x1 .f32) (a10 : FVec Ideal S1 .f32)
    (h : fn (F := Ideal) a0 a1 a2 a3 a4 a5 a6 a7 a8 a9 a10 = fun _ => 1#1) (e : S1000000.Idx) :
    IntOp.cmpi .sge (targets a1 e) 0#32 = 1#1 := by
  have e0 := congrFun h (fun d => d.elim0)
  unfold fn at e0
  dsimp only at e0
  unfold fn_part1 at e0
  dsimp only at e0
  unfold fn_part2 at e0
  dsimp only at e0
  have h48 := (IntOp.andi_eq_one.mp e0).2
  exact Host.reduce_andi_all _ _ _ _ _ h48 e

end Cert.Gcn.TargetsNonNeg

end
-- ==== Proof.KernelRun.lean ====
/-
  The idealized kernel's whole run, with its result named. The program is fourteen segments: stretches of host
  operations and six pipelined calls. The contents of every buffer at each segment boundary are a fold from the launch
  memory: a stretch of host operations applies them; a call leaves each of its arrays at what its write-backs add up
  to and every other buffer as it was. Every weakly fair execution terminates, nothing faulting, in a state whose
  buffers are the last boundary's: in particular the result buffer holds the fold's value there, and the eleven
  arguments are as launched.
-/
import proofs.«121682_j31825707663693_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the
    arguments unchanged. -/
theorem run : θ_run defs (onTc (τ := τ) (main (F := F))) ⟨m, fun _ => 0, ρ⟩ (fun r => ∀ c : Dev nD,
      r.2.mem ((c.tc : Thread nD τ).loc main_v89) = W14 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v89 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.ValueRun

end
-- ==== Proof.KernelStages.lean ====
/-
  The host-side stages of the kernel program, each as a function of the arrays it reads. The program's host
  operations between its six pipelined calls are: the two rows of the edge list (sources, targets); the negative-index
  wrap of an index vector and its [1000000, 1] index column; the inverse square root of the node degree (one plus the
  number of edges whose wrapped target is the node) and its [100000, 1] column; the gather of feature rows at the wrapped
  sources; the edge weights (the inverse-square-root degree at the wrapped source times that at the wrapped target) and
  their [1000000, 1] column; the scatter-add of message rows into a zero [100000, 64] array at an index vector; a bias
  vector as a [1, 64] row; and the pooled head (scatter-add of node rows into 128 graph rows at the batch vector, a
  dense layer with bias and clamp at zero, a second dense layer with bias, the [128, 1] result as a 128-vector).
-/
import proofs.«121682_j31825707663693_2_alg».proof.Proof.Gen.KernelIdeal
import Idealize.ShloMosaic.PureOps.Ideal

noncomputable section

namespace Cert.KernelIdeal.Stages

open Cert.KernelIdeal Cert.KernelIdeal.Gen
open Idealize.ShloMosaic

/-- Row 0 of the edge list: each edge's source node. -/
def sources (ei : IVec S2x1000000 32) : IVec S1000000 32 :=
  shapeCast S1000000 (extractStridedSlice S1x1000000 ![0, 0] ei slices_S2x1000000_S1x1000000_0_0) shapeCasts_S1x1000000_S1000000

/-- Row 1 of the edge list: each edge's target node. -/
def targets (ei : IVec S2x1000000 32) : IVec S1000000 32 :=
  shapeCast S1000000 (extractStridedSlice S1x1000000 ![1, 0] ei slices_S2x1000000_S1x1000000_1_0) shapeCasts_S1x1000000_S1000000

/-- The negative-index wrap against the node count: an entry below zero has 100000 added. -/
def wrapped (d : IVec S1000000 32) : IVec S1000000 32 :=
  select (cmpi .slt d (broadcastInDim S1000000 ![] bcast_S_S1000000 (constantI S_ 32 0#32)))
    (addi d (broadcastInDim S1000000 ![] bcast_S_S1000000 (constantI S_ 32 100000#32))) d

/-- An index vector as the [1000000, 1] column a gather or scatter takes. -/
def asIndex (d : IVec S1000000 32) : IVec S1000000x1 32 :=
  broadcastInDim S1000000x1 ![0] bcast_S1000000_S1000000x1_0 d

/-- The inverse square root of (number of edges landing on the node, counted into zeros) plus one. -/
def invSqrtDeg (dst : IVec S1000000 32) : FVec Ideal S100000 .f32 :=
  Host.rsqrt (addf
    (Host.scatterAdd scatter_S100000_S1000000x1_S1000000_n_0_0_1 (broadcastInDim S100000 ![] bcast_S_S100000 (constant S_ .f32 0x00000000#32))
      (asIndex (wrapped dst)) (broadcastInDim S1000000 ![] bcast_S_S1000000 (constant S_ .f32 0x3F800000#32)))
    (broadcastInDim S100000 ![] bcast_S_S100000 (constant S_ .f32 0x3F800000#32)))

/-- A node vector as a [100000, 1] column. -/
def nodeColumn (d : FVec Ideal S100000 .f32) : FVec Ideal S100000x1 .f32 :=
  shapeCast S100000x1 d shapeCasts_S100000_S100000x1

/-- Feature rows gathered at the wrapped sources. -/
def gatherRows (h : FVec Ideal S100000x64 .f32) (src : IVec S1000000 32) : FVec Ideal S1000000x64 .f32 :=
  Host.gather gather_S100000x64_S1000000x1_S1000000x64_1_0_n_n_0_1_164 h (asIndex (wrapped src))

/-- The edge weights: the node vector at the wrapped source times the node vector at the wrapped target. -/
def edgeWeights (d : FVec Ideal S100000 .f32) (src dst : IVec S1000000 32) : FVec Ideal S1000000 .f32 :=
  mulf (Host.gather gather_S100000_S1000000x1_S1000000_n_0_n_n_0_1_1 d (asIndex (wrapped src)))
    (Host.gather gather_S100000_S1000000x1_S1000000_n_0_n_n_0_1_1 d (asIndex (wrapped dst)))

/-- An edge vector as a [1000000, 1] column. -/
def edgeColumn (w : FVec Ideal S1000000 .f32) : FVec Ideal S1000000x1 .f32 :=
  shapeCast S1000000x1 w shapeCasts_S1000000_S1000000x1

/-- Message rows added into a zero [100000, 64] array at an index vector. -/
def aggregate (idx : IVec S1000000 32) (msg : FVec Ideal S1000000x64 .f32) : FVec Ideal S100000x64 .f32 :=
  Host.scatterAdd scatter_S100000x64_S1000000x1_S1000000x64_1_0_0_1 (broadcastInDim S100000x64 ![] bcast_S_S100000x64 (constant S_ .f32 0x00000000#32))
    (asIndex idx) msg

/-- A bias vector as a [1, 64] row. -/
def biasRow (b : FVec Ideal S64 .f32) : FVec Ideal S1x64 .f32 :=
  shapeCast S1x64 b shapeCasts_S64_S1x64

/-- The pooled head: node rows summed per graph, two dense layers, the first clamped at zero. -/
def head (h2 : FVec Ideal S100000x64 .f32) (batch : IVec S100000 32) (wl1 : FVec Ideal S64x64 .f32) (bl1 : FVec Ideal S64 .f32)
    (wl2 : FVec Ideal S64x1 .f32) (bl2 : FVec Ideal S1 .f32) : FVec Ideal S128 .f32 :=
  shapeCast S128 (addf
    (Host.dotGeneral dot_S128x64_S64x1_S128x1_1_0_0_1_n_n none
      (maximumf
        (addf
          (Host.dotGeneral dot_S128x64_S64x64_S128x64_1_0_0_1_n_n none
            (Host.scatterAdd scatter_S128x64_S100000x1_S100000x64_1_0_0_1 (broadcastInDim S128x64 ![] bcast_S_S128x64 (constant S_ .f32 0x00000000#32))
              (broadcastInDim S100000x1 ![0] bcast_S100000_S100000x1_0 batch) h2)
            wl1)
          (broadcastInDim S128x64 ![0, 1] bcast_S1x64_S128x64_0_1 (broadcastInDim S1x64 ![1] bcast_S64_S1x64_1 bl1)))
        (broadcastInDim S128x64 ![] bcast_S_S128x64 (constant S_ .f32 0x00000000#32)))
      wl2)
    (broadcastInDim S128x1 ![0, 1] bcast_S1x1_S128x1_0_1 (broadcastInDim S1x1 ![1] bcast_S1_S1x1_1 bl2)))
    shapeCasts_S128x1_S128

end Cert.KernelIdeal.Stages

end
-- ==== Proof.FeatureMatmul0.lean ====
/-
  The first dense transform, node features times the first weight matrix. Its grid has 10 points; point t stages rows 10000 t … 10000 t + 9999 of the left
  operand (a [100000, 128] array), the whole right operand (a [128, 64] array, the same block at every point), and
  writes the same rows of the [100000, 64] product. The body is one matrix product of the staged blocks into a zero
  accumulator; the change of float format before it is the identity on extended reals. So entry (r, c) of the
  result is the sum over k < 128 of left(r, k) · right(k, c): each block is the restriction of that one function to its
  rows, and the 10 blocks tile the 100000 rows.
-/
import proofs.«121682_j31825707663693_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.FeatureMatmul0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The matrix product of a [100000, 128] array and a [128, 64] array, entry by entry. -/
def product (x : S100000x128.Idx → EReal) (w : S128x64.Idx → EReal) : S100000x64.Idx → EReal :=
  fun i => ∑ k : Fin 128, x (ix2 (i 0) k) * w (ix2 k (i 1))

/-! The block product's operand indices: the left operand is read at (row of the result, k), the right at (k, column). -/

theorem lhs_row (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_k (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem rhs_k (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem rhs_col (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's product at row p, column q of a block: the sum over k of the staged left block at (p, k) times the
    right operand at (k, q). -/
theorem pay_apply (x0 : FVec Ideal S10000x128 .f32) (x1 : FVec Ideal S128x64 .f32) (p : Fin 10000) (q : Fin 64) :
    k0_pay1 (F := Ideal) x0 x1 (ix2 p q) = ∑ k : Fin 128, x0 (ix2 p k) * x1 (ix2 k q) := by
  unfold k0_pay1
  refine (Ideal.matmul_constant_zero_apply dot_S10000x128_S128x64_S10000x64_1_0_0_1_n_n none _ _ (ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_row _ _
    | ⟨1, _⟩ => exact (lhs_k _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_k _ _).trans hk
    | ⟨1, _⟩ => exact rhs_col _ _)
  show x0 (dot_S10000x128_S128x64_S10000x64_1_0_0_1_n_n.lhsIdx (ix2 p q) ((ValueIdx.contrEquiv1 dot_S10000x128_S128x64_S10000x64_1_0_0_1_n_n 128 rfl rfl).symm k))
      * x1 (dot_S10000x128_S128x64_S10000x64_1_0_0_1_n_n.rhsIdx (ix2 p q) ((ValueIdx.contrEquiv1 dot_S10000x128_S128x64_S10000x64_1_0_0_1_n_n 128 rfl rfl).symm k)) = _
  rw [el, er]

/-- The three windows' block indices at point t: the left operand and the result on block row t, the right operand
    always on block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 2000000 in
/-- What point t writes back is block t of the product. -/
theorem flushed_eq (c : Dev nD) (t : Fin cfg0.N) :
    (dat0 V c).flushed 2 t = ((cfg0.win 2).blk t).view.read (Elt Ideal)
      (product (V c (Pipeline.arrRef spec0 0)) (V c (Pipeline.arrRef spec0 1))) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x64) zero_off]
  obtain ⟨e0, e1, e2, e3, e4, e5⟩ := idx_facts t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = product (V c (Pipeline.arrRef spec0 0)) (V c (Pipeline.arrRef spec0 1)) (((cfg0.win 2).blk t).view.emb (ix2 p q))
  refine (pay_apply (iblk0 V c 0 t) (iblk0 V c 1 t) p q).trans ?_
  have h0 : ∀ k : Fin 128, ((cfg0.win 0).blk t).view.emb (ix2 p k)
      = ix2 ((((cfg0.win 2).blk t).view.emb (ix2 p q)) 0) k := fun k => by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ∀ k : Fin 128, ((cfg0.win 1).blk t).view.emb (ix2 k q)
      = ix2 k ((((cfg0.win 2).blk t).view.emb (ix2 p q)) 1) := fun k => by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  have key : ∀ (A : S100000x128.Idx → EReal) (B : S128x64.Idx → EReal),
      (∑ k : Fin 128, A (((cfg0.win 0).blk t).view.emb (ix2 p k)) * B (((cfg0.win 1).blk t).view.emb (ix2 k q)))
        = product A B (((cfg0.win 2).blk t).view.emb (ix2 p q)) := by
    intro A B
    unfold product
    refine Finset.sum_congr rfl fun k _ => ?_
    rw [h0 k, h1 k] <;> rfl
  exact key (V c (Pipeline.arrRef spec0 0)) (V c (Pipeline.arrRef spec0 1))

/-- An index of the result array is in point t's block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v17).slice (win0_2.rect t)).set ↔ _
  rw [View.set_slice_whole, Rect.mem_set_unit]
  exact Iff.rfl

/-- Row r lies in the block of point r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨e0, e1, e2, e3, e4, e5⟩ := idx_facts t
  refine ⟨t, flush0_2 t, ?_⟩
  rw [mem_blk]
  intro a
  have ht : t.val = (i 0).val / 10000 := rfl
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the call the result array holds the product of the two operand arrays as the call found them. -/
theorem final (c : Dev nD) : (dat0 V c).arrAt 2 cfg0.N
    = product (V c (Pipeline.arrRef spec0 0)) (V c (Pipeline.arrRef spec0 1)) :=
  (dat0 V c).arrAt_eq_of_cover 2 _ (fun t _ => flushed_eq V c t) cover

end Cert.KernelIdeal.FeatureMatmul0

end
-- ==== Proof.EdgeScale1.lean ====
/-
  The first edge-scaling call. Its grid has 125 points; point t stages rows 8000 t … 8000 t + 7999 of the gathered
  source features (a [1000000, 64] array), the same rows of the edge-weight column (a [1000000, 1] array), and writes
  the same rows of the message array. The body multiplies each staged row by that row's weight, the column broadcast
  along the 64 lanes. So entry (e, c) of the message array is (source features)(e, c) · weight(e, 0): the blocks are
  the restrictions of that one function, and the 125 blocks tile the 1000000 rows.
-/
import proofs.«121682_j31825707663693_2_alg».proof.Proof.Gen.KernelIdeal.Frame
import Idealize.ShloMosaic.Lib.ValueIdx
import Idealize.ShloMosaic.Lib.Pipeline.Value

set_option maxRecDepth 16384

noncomputable section

namespace Cert.KernelIdeal.EdgeScale1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Each row of features times that row's weight. -/
def scaled (hs : S1000000x64.Idx → EReal) (nm : S1000000x1.Idx → EReal) : S1000000x64.Idx → EReal :=
  fun i => hs i * nm (ix2 (i 0) (0 : Fin 1))

/-- The body's product at row p, lane q of a block: the feature entry times the row's weight. -/
theorem pay_apply (x0 : FVec Ideal S8000x64 .f32) (x1 : FVec Ideal S8000x1 .f32) (p : Fin 8000) (q : Fin 64) :
    k1_pay1 (F := Ideal) x0 x1 (ix2 p q) = x0 (ix2 p q) * x1 (ix2 p (0 : Fin 1)) := by
  unfold k1_pay1
  rw [shapeCast_self, shapeCast_self]
  show x0 (ix2 p q) * broadcastTo S8000x64 x1 broadcasts_S8000x1_S8000x64 (ix2 p q) = _
  refine congrArg (x0 (ix2 p q) * ·) ?_
  refine broadcastTo_apply _ _ _ (ix2 p (0 : Fin 1)) fun a => ?_
  match a with
  | ⟨0, _⟩ => rfl
  | ⟨1, _⟩ => rfl

/-- The three windows' block indices at point t: all on block row t, block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

set_option maxHeartbeats 2000000 in
/-- What point t writes back is block t of the scaled array. -/
theorem flushed_eq (c : Dev nD) (t : Fin cfg1.N) :
    (dat1 V c).flushed 2 t = ((cfg1.win 2).blk t).view.read (Elt Ideal)
      (scaled (V c (Pipeline.arrRef spec1 0)) (V c (Pipeline.arrRef spec1 1))) := by
  show (cfg1.win 2).cut (grid1.coords t) ((dat1 V c).after 2 t) = _
  rw [after1_2]
  unfold out1_2
  rw [View.canon_unit_zero zero_off]
  simp only [View.ld_unit_zero (S := S8000x64) zero_off, View.ld_unit_zero (S := S8000x1) zero_off]
  obtain ⟨e0, e1, e2, e3, e4, e5⟩ := idx_facts t
  funext j
  obtain ⟨p, q, rfl⟩ : ∃ (p : Fin 8000) (q : Fin 64), j = ix2 p q := ⟨j 0, j 1, eq_ix2 j⟩
  show k1_pay1 (iblk1 V c 0 t) (iblk1 V c 1 t) (ix2 p q)
    = scaled (V c (Pipeline.arrRef spec1 0)) (V c (Pipeline.arrRef spec1 1)) (((cfg1.win 2).blk t).view.emb (ix2 p q))
  refine (pay_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 8000 + 1 * p.val = win1_2.index t (0 : Fin 2) * 8000 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1))
      = ix2 ((((cfg1.win 2).blk t).view.emb (ix2 p q)) 0) (0 : Fin 1) := by
    funext a; apply Fin.ext
    match a with
    | ⟨0, _⟩ => show win1_1.index t (0 : Fin 2) * 8000 + 1 * p.val = win1_2.index t (0 : Fin 2) * 8000 + 1 * p.val; omega
    | ⟨1, _⟩ => show win1_1.index t (1 : Fin 2) * 1 + 1 * 0 = 0; omega
  have key : ∀ (A : S1000000x64.Idx → EReal) (B : S1000000x1.Idx → EReal),
      A (((cfg1.win 0).blk t).view.emb (ix2 p q)) * B (((cfg1.win 1).blk t).view.emb (ix2 p (0 : Fin 1)))
        = scaled A B (((cfg1.win 2).blk t).view.emb (ix2 p q)) := by
    intro A B
    unfold scaled
    rw [h0, h1] <;> rfl
  exact key (V c (Pipeline.arrRef spec1 0)) (V c (Pipeline.arrRef spec1 1))

/-- An index of the message array is in point t's block iff each coordinate is in the block's range. -/
theorem mem_blk (t : Fin cfg1.N) (i : S1000000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v41).slice (win1_2.rect t)).set ↔ _
  rw [View.set_slice_whole, Rect.mem_set_unit]
  exact Iff.rfl

/-- Row e lies in the block of point e / 8000. -/
theorem cover (i : S1000000x64.Idx) : ∃ t : Fin cfg1.N, (cfg1.win 2).flush t = true ∧ i ∈ ((cfg1.win 2).blk t).view.set := by
  have hi0 : (i 0).val < 1000000 := (i 0).isLt
  have hi1 : (i 1).val < 64 := (i 1).isLt
  let t : Fin cfg1.N := ⟨(i 0).val / 8000, by rw [show cfg1.N = 125 from N_1]; omega⟩
  obtain ⟨e0, e1, e2, e3, e4, e5⟩ := idx_facts t
  refine ⟨t, flush1_2 t, ?_⟩
  rw [mem_blk]
  intro a
  have ht : t.val = (i 0).val / 8000 := rfl
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 64 ≤ (i 1).val ∧ (i 1).val < win1_2.index t (1 : Fin 2) * 64 + 64; omega

/-- After the call the message array holds the scaled array of the two operand arrays as the call found them. -/
theorem final (c : Dev nD) : (dat1 V c).arrAt 2 cfg1.N
    = scaled (V c (Pipeline.arrRef spec1 0)) (V c (Pipeline.arrRef spec1 1)) :=
  (dat1 V c).arrAt_eq_of_cover 2 _ (fun t _ => flushed_eq V c t) cover

end Cert.KernelIdeal.EdgeScale1

end
-- ==== Proof.NodeCombine2.lean ====
/-
  The first layer's combine step. Its grid has 10 points; point t stages rows 10000 t … 10000 t + 9999 of the aggregated
  messages and of the transformed features (two [100000, 64] arrays), the same rows of the inverse-square-root degree
  column (a [100000, 1] array), the whole bias row (a [1, 64] array, the same block at every point), and writes the same
  rows of the [100000, 64] result. The body adds to each aggregated entry the transformed entry times the square of
  its row's column entry, adds the bias of its lane, and takes the maximum with zero. So entry (r, c) of the result is
  max ((agg(r, c) + h(r, c) · (d(r, 0) · d(r, 0))) + b(0, c), 0): the blocks restrict that one function, and the 10
  blocks tile the 100000 rows.
-/
import proofs.«121682_j31825707663693_2_alg».proof.Proof.Gen.KernelIdeal.Frame
import Idealize.ShloMosaic.Lib.ValueIdx
import Idealize.ShloMosaic.Lib.Pipeline.Value

set_option maxRecDepth 16384

noncomputable section

namespace Cert.KernelIdeal.NodeCombine2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Aggregate plus self-loop term plus bias, clamped below at zero, entry by entry. -/
def combined (agg h : S100000x64.Idx → EReal) (d : S100000x1.Idx → EReal) (b : S1x64.Idx → EReal) : S100000x64.Idx → EReal :=
  fun i => max ((agg i + h i * (d (ix2 (i 0) (0 : Fin 1)) * d (ix2 (i 0) (0 : Fin 1)))) + b (ix2 (0 : Fin 1) (i 1)))
    (Scalar.ofBits (F := Ideal) .f32 0x00000000#32)

/-- A column broadcast along the lanes reads the row's one entry. -/
theorem col_bcast (v : FVec Ideal S10000x1 .f32) (p : Fin 10000) (q : Fin 64) :
    broadcastTo S10000x64 v broadcasts_S10000x1_S10000x64 (ix2 p q) = v (ix2 p (0 : Fin 1)) :=
  broadcastTo_apply v _ _ (ix2 p (0 : Fin 1)) fun a => by
    match a with
    | ⟨0, _⟩ => rfl
    | ⟨1, _⟩ => rfl

/-- A row broadcast along the rows reads the lane's one entry. -/
theorem row_bcast (v : FVec Ideal S1x64 .f32) (p : Fin 10000) (q : Fin 64) :
    broadcastTo S10000x64 v broadcasts_S1x64_S10000x64 (ix2 p q) = v (ix2 (0 : Fin 1) q) :=
  broadcastTo_apply v _ _ (ix2 (0 : Fin 1) q) fun a => by
    match a with
    | ⟨0, _⟩ => rfl
    | ⟨1, _⟩ => rfl

/-- The body's value at row p, lane q of a block. -/
theorem pay_apply (v0 : FVec Ideal S10000x1 .f32) (v2 v4 : FVec Ideal S10000x64 .f32) (v10 : FVec Ideal S1x64 .f32)
    (p : Fin 10000) (q : Fin 64) :
    k2_pay1 (F := Ideal) v0 v2 v4 v10 (ix2 p q)
      = max ((v2 (ix2 p q) + v4 (ix2 p q) * (v0 (ix2 p (0 : Fin 1)) * v0 (ix2 p (0 : Fin 1)))) + v10 (ix2 (0 : Fin 1) q))
          (Scalar.ofBits (F := Ideal) .f32 0x00000000#32) := by
  unfold k2_pay1
  simp only [shapeCast_self]
  show max ((v2 (ix2 p q) + v4 (ix2 p q) * broadcastTo S10000x64 (mulf v0 v0) broadcasts_S10000x1_S10000x64 (ix2 p q))
      + broadcastTo S10000x64 v10 broadcasts_S1x64_S10000x64 (ix2 p q)) (Scalar.ofBits (F := Ideal) .f32 0x00000000#32) = _
  rw [col_bcast, row_bcast]
  rfl

/-- The five windows' block indices at point t: the bias row always on block (0, 0), the others on block row t. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

set_option maxHeartbeats 2000000 in
/-- What point t writes back is block t of the combined array. -/
theorem flushed_eq (c : Dev nD) (t : Fin cfg2.N) :
    (dat2 V c).flushed 4 t = ((cfg2.win 4).blk t).view.read (Elt Ideal)
      (combined (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero zero_off]
  simp only [View.ld_unit_zero (S := S10000x64) zero_off, View.ld_unit_zero (S := S10000x1) zero_off, View.ld_unit_zero (S := S1x64) zero_off]
  obtain ⟨e0, e1, e2, e3, e4, e5, e6, e7, e8, e9⟩ := idx_facts t
  funext j
  obtain ⟨p, q, rfl⟩ : ∃ (p : Fin 10000) (q : Fin 64), j = ix2 p q := ⟨j 0, j 1, eq_ix2 j⟩
  show k2_pay1 (iblk2 V c 2 t) (iblk2 V c 0 t) (iblk2 V c 1 t) (iblk2 V c 3 t) (ix2 p q)
    = combined (V c (Pipeline.arrRef spec2 0)) (V c (Pipeline.arrRef spec2 1)) (V c (Pipeline.arrRef spec2 2)) (V c (Pipeline.arrRef spec2 3))
        (((cfg2.win 4).blk t).view.emb (ix2 p q))
  refine (pay_apply (iblk2 V c 2 t) (iblk2 V c 0 t) (iblk2 V c 1 t) (iblk2 V c 3 t) p q).trans ?_
  have h0 : ((cfg2.win 0).blk t).view.emb (ix2 p q) = ((cfg2.win 4).blk t).view.emb (ix2 p q) := by
    funext a; apply Fin.ext
    match a with
    | ⟨0, _⟩ => show win2_0.index t (0 : Fin 2) * 10000 + 1 * p.val = win2_4.index t (0 : Fin 2) * 10000 + 1 * p.val; omega
    | ⟨1, _⟩ => show win2_0.index t (1 : Fin 2) * 64 + 1 * q.val = win2_4.index t (1 : Fin 2) * 64 + 1 * q.val; omega
  have h1 : ((cfg2.win 1).blk t).view.emb (ix2 p q) = ((cfg2.win 4).blk t).view.emb (ix2 p q) := by
    funext a; apply Fin.ext
    match a with
    | ⟨0, _⟩ => show win2_1.index t (0 : Fin 2) * 10000 + 1 * p.val = win2_4.index t (0 : Fin 2) * 10000 + 1 * p.val; omega
    | ⟨1, _⟩ => show win2_1.index t (1 : Fin 2) * 64 + 1 * q.val = win2_4.index t (1 : Fin 2) * 64 + 1 * q.val; omega
  have h2 : ((cfg2.win 2).blk t).view.emb (ix2 p (0 : Fin 1))
      = ix2 ((((cfg2.win 4).blk t).view.emb (ix2 p q)) 0) (0 : Fin 1) := by
    funext a; apply Fin.ext
    match a with
    | ⟨0, _⟩ => show win2_2.index t (0 : Fin 2) * 10000 + 1 * p.val = win2_4.index t (0 : Fin 2) * 10000 + 1 * p.val; omega
    | ⟨1, _⟩ => show win2_2.index t (1 : Fin 2) * 1 + 1 * 0 = 0; omega
  have h3 : ((cfg2.win 3).blk t).view.emb (ix2 (0 : Fin 1) q)
      = ix2 (0 : Fin 1) ((((cfg2.win 4).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 64 + 1 * q.val = win2_4.index t (1 : Fin 2) * 64 + 1 * q.val; omega
  have key : ∀ (A0 A1 : S100000x64.Idx → EReal) (A2 : S100000x1.Idx → EReal) (A3 : S1x64.Idx → EReal),
      max ((A0 (((cfg2.win 0).blk t).view.emb (ix2 p q)) + A1 (((cfg2.win 1).blk t).view.emb (ix2 p q))
            * (A2 (((cfg2.win 2).blk t).view.emb (ix2 p (0 : Fin 1))) * A2 (((cfg2.win 2).blk t).view.emb (ix2 p (0 : Fin 1)))))
          + A3 (((cfg2.win 3).blk t).view.emb (ix2 (0 : Fin 1) q))) (Scalar.ofBits (F := Ideal) .f32 0x00000000#32)
        = combined A0 A1 A2 A3 (((cfg2.win 4).blk t).view.emb (ix2 p q)) := by
    intro A0 A1 A2 A3
    unfold combined
    rw [h0, h1, h2, h3] <;> rfl
  exact key (V c (Pipeline.arrRef spec2 0)) (V c (Pipeline.arrRef spec2 1)) (V c (Pipeline.arrRef spec2 2)) (V c (Pipeline.arrRef spec2 3))

/-- An index of the result array is in point t's block iff each coordinate is in the block's range. -/
theorem mem_blk (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v46).slice (win2_4.rect t)).set ↔ _
  rw [View.set_slice_whole, Rect.mem_set_unit]
  exact Iff.rfl

/-- Row r lies in the block of point r / 10000. -/
theorem cover (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  let t : Fin cfg2.N := ⟨(i 0).val / 10000, by rw [show cfg2.N = 10 from N_2]; omega⟩
  obtain ⟨e0, e1, e2, e3, e4, e5, e6, e7, e8, e9⟩ := idx_facts t
  refine ⟨t, flush2_4 t, ?_⟩
  rw [mem_blk]
  intro a
  have ht : t.val = (i 0).val / 10000 := rfl
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

/-- After the call the result array holds the combined array of the four operand arrays as the call found them. -/
theorem final (c : Dev nD) : (dat2 V c).arrAt 4 cfg2.N
    = combined (V c (Pipeline.arrRef spec2 0)) (V c (Pipeline.arrRef spec2 1)) (V c (Pipeline.arrRef spec2 2)) (V c (Pipeline.arrRef spec2 3)) :=
  (dat2 V c).arrAt_eq_of_cover 4 _ (fun t _ => flushed_eq V c t) cover

end Cert.KernelIdeal.NodeCombine2

end
-- ==== Proof.KernelLayer1.lean ====
/-
  The first layer of the kernel program, read off its run. The buffer contents at each segment boundary are a fold
  from the launch memory. Walking that fold: after the first stretch of host operations the sources, the targets, the
  inverse-square-root degree and its column hold their functions of the edge list; the first call leaves the product
  of the node features and the first weight matrix; the second stretch gathers its rows at the sources and forms the
  edge-weight column; the second call leaves the scaled messages; the third stretch adds them up at the (unwrapped)
  targets and lays the bias out as a row; the third call leaves the first layer's output. A buffer no operation
  between two boundaries writes is carried back unchanged.
-/
import proofs.«121682_j31825707663693_2_alg».proof.Proof.Gen.KernelIdeal.Frame
import proofs.«121682_j31825707663693_2_alg».proof.Proof.KernelStages
import proofs.«121682_j31825707663693_2_alg».proof.Proof.FeatureMatmul0
import proofs.«121682_j31825707663693_2_alg».proof.Proof.EdgeScale1
import proofs.«121682_j31825707663693_2_alg».proof.Proof.NodeCombine2
import Idealize.ShloMosaic.Lib.StableHlo.Run

set_option maxRecDepth 16384

noncomputable section

namespace Cert.KernelIdeal.Layer1

open Cert.KernelIdeal Cert.KernelIdeal.Gen Cert.KernelIdeal.Stages
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A stretch of host operations leaves a buffer none of them writes as it was. -/
macro "host_skip" : tactic => `(tactic| (
  refine StableHlo.after_of_forall_not_mem _ _ (List.forall_iff_forall_mem.mp ?_)
  simp only [hostOps0, hostOps1, hostOps2, hostOps4, hostOps5, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The stages' values, named -/

/-- The edges' sources and targets, the inverse-square-root degree. -/
def SRC : IVec S1000000 32 := sources (m ((c : Thread nD τ).loc main_arg1))
def DST : IVec S1000000 32 := targets (m ((c : Thread nD τ).loc main_arg1))
def DIS : FVec Ideal S100000 .f32 := invSqrtDeg (DST m c)
/-- The edge-weight column. -/
def WCOL : FVec Ideal S1000000x1 .f32 := edgeColumn (edgeWeights (DIS m c) (SRC m c) (DST m c))
/-- The first layer: transformed features, scaled messages, aggregate, output. -/
def T1 : S100000x64.Idx → EReal := FeatureMatmul0.product (m ((c : Thread nD τ).loc main_arg0)) (m ((c : Thread nD τ).loc main_arg3))
def MSG1 : S1000000x64.Idx → EReal := EdgeScale1.scaled (gatherRows (T1 m c) (SRC m c)) (WCOL m c)
def AGG1 : S100000x64.Idx → EReal := aggregate (DST m c) (MSG1 m c)
def H1 : S100000x64.Idx → EReal := NodeCombine2.combined (AGG1 m c) (T1 m c) (nodeColumn (DIS m c)) (biasRow (m ((c : Thread nD τ).loc main_arg4)))

/-! ## Buffers carried back across a boundary -/

theorem back2_v1 : W2 m ρ c (Proc.devRef .tc main_v1) = W1 m ρ c (Proc.devRef .tc main_v1) := W2_of_ne m ρ c main_v1 (by decide)
theorem back2_v3 : W2 m ρ c (Proc.devRef .tc main_v3) = W1 m ρ c (Proc.devRef .tc main_v3) := W2_of_ne m ρ c main_v3 (by decide)
theorem back2_v15 : W2 m ρ c (Proc.devRef .tc main_v15) = W1 m ρ c (Proc.devRef .tc main_v15) := W2_of_ne m ρ c main_v15 (by decide)
theorem back4_v3 : W4 m ρ c (Proc.devRef .tc main_v3) = W3 m ρ c (Proc.devRef .tc main_v3) := W4_of_ne m ρ c main_v3 (by decide)
theorem back3_v3 : W3 m ρ c (Proc.devRef .tc main_v3) = W2 m ρ c (Proc.devRef .tc main_v3) := by host_skip
theorem back4_arg4 : W4 m ρ c (Proc.devRef .tc main_arg4) = W3 m ρ c (Proc.devRef .tc main_arg4) := W4_of_ne m ρ c main_arg4 (by decide)
theorem back3_arg4 : W3 m ρ c (Proc.devRef .tc main_arg4) = W2 m ρ c (Proc.devRef .tc main_arg4) := by host_skip
theorem back2_arg4 : W2 m ρ c (Proc.devRef .tc main_arg4) = W1 m ρ c (Proc.devRef .tc main_arg4) := W2_of_ne m ρ c main_arg4 (by decide)
theorem back1_arg4 : W1 m ρ c (Proc.devRef .tc main_arg4) = W0 m ρ c (Proc.devRef .tc main_arg4) := by host_skip
theorem back5_v17 : W5 m ρ c (Proc.devRef .tc main_v17) = W4 m ρ c (Proc.devRef .tc main_v17) := by host_skip
theorem back4_v17 : W4 m ρ c (Proc.devRef .tc main_v17) = W3 m ρ c (Proc.devRef .tc main_v17) := W4_of_ne m ρ c main_v17 (by decide)
theorem back3_v17 : W3 m ρ c (Proc.devRef .tc main_v17) = W2 m ρ c (Proc.devRef .tc main_v17) := by host_skip
theorem back5_v16 : W5 m ρ c (Proc.devRef .tc main_v16) = W4 m ρ c (Proc.devRef .tc main_v16) := by host_skip
theorem back4_v16 : W4 m ρ c (Proc.devRef .tc main_v16) = W3 m ρ c (Proc.devRef .tc main_v16) := W4_of_ne m ρ c main_v16 (by decide)
theorem back3_v16 : W3 m ρ c (Proc.devRef .tc main_v16) = W2 m ρ c (Proc.devRef .tc main_v16) := by host_skip
theorem back2_v16 : W2 m ρ c (Proc.devRef .tc main_v16) = W1 m ρ c (Proc.devRef .tc main_v16) := W2_of_ne m ρ c main_v16 (by decide)
theorem back1_arg0 : W1 m ρ c (Proc.devRef .tc main_arg0) = W0 m ρ c (Proc.devRef .tc main_arg0) := by host_skip
theorem back1_arg3 : W1 m ρ c (Proc.devRef .tc main_arg3) = W0 m ρ c (Proc.devRef .tc main_arg3) := by host_skip

/-! ## After the first stretch of host operations -/

set_option maxHeartbeats 8000000 in
theorem src_1 : W1 m ρ c (Proc.devRef .tc main_v1) = SRC m c := by
  show StableHlo.after hostOps0 (W0 m ρ c) (Proc.devRef .tc main_v1) = _
  after_results; rfl
set_option maxHeartbeats 8000000 in
theorem dst_1 : W1 m ρ c (Proc.devRef .tc main_v3) = DST m c := by
  show StableHlo.after hostOps0 (W0 m ρ c) (Proc.devRef .tc main_v3) = _
  after_results; rfl
set_option maxHeartbeats 8000000 in
theorem dis_1 : W1 m ρ c (Proc.devRef .tc main_v15) = DIS m c := by
  show StableHlo.after hostOps0 (W0 m ρ c) (Proc.devRef .tc main_v15) = _
  after_results; rfl
set_option maxHeartbeats 8000000 in
theorem col_1 : W1 m ρ c (Proc.devRef .tc main_v16) = nodeColumn (DIS m c) := by
  show StableHlo.after hostOps0 (W0 m ρ c) (Proc.devRef .tc main_v16) = _
  after_results; rfl
theorem x_1 : W1 m ρ c (Proc.devRef .tc main_arg0) = (m ((c : Thread nD τ).loc main_arg0)) := (back1_arg0 m ρ c)
theorem w1_1 : W1 m ρ c (Proc.devRef .tc main_arg3) = (m ((c : Thread nD τ).loc main_arg3)) := (back1_arg3 m ρ c)

/-! ## After the first call -/

theorem t1_2 : W2 m ρ c (Proc.devRef .tc main_v17) = T1 m c :=
  (W2_arr m ρ c 2).trans ((FeatureMatmul0.final (V1 m ρ) c).trans (by
    show FeatureMatmul0.product (W1 m ρ c (Proc.devRef .tc main_arg0)) (W1 m ρ c (Proc.devRef .tc main_arg3)) = _
    rw [x_1, w1_1]; try rfl))

/-! ## After the second stretch -/

set_option maxHeartbeats 8000000 in
theorem hsrc_3 : W3 m ρ c (Proc.devRef .tc main_v24) = gatherRows (T1 m c) (SRC m c) := by
  have e : W3 m ρ c (Proc.devRef .tc main_v24) = gatherRows (W2 m ρ c (Proc.devRef .tc main_v17)) (W2 m ρ c (Proc.devRef .tc main_v1)) := by
    show StableHlo.after hostOps1 (W2 m ρ c) (Proc.devRef .tc main_v24) = _
    after_results; rfl
  rw [e, t1_2, (back2_v1 m ρ c), src_1]
set_option maxHeartbeats 8000000 in
theorem wcol_3 : W3 m ρ c (Proc.devRef .tc main_v40) = WCOL m c := by
  have e : W3 m ρ c (Proc.devRef .tc main_v40) = edgeColumn (edgeWeights (W2 m ρ c (Proc.devRef .tc main_v15)) (W2 m ρ c (Proc.devRef .tc main_v1)) (W2 m ρ c (Proc.devRef .tc main_v3))) := by
    show StableHlo.after hostOps1 (W2 m ρ c) (Proc.devRef .tc main_v40) = _
    after_results; rfl
  rw [e, (back2_v15 m ρ c), dis_1, (back2_v1 m ρ c), src_1, (back2_v3 m ρ c), dst_1]; try rfl

/-! ## After the second call -/

theorem msg1_4 : W4 m ρ c (Proc.devRef .tc main_v41) = MSG1 m c :=
  (W4_arr m ρ c 2).trans ((EdgeScale1.final (V3 m ρ) c).trans (by
    show EdgeScale1.scaled (W3 m ρ c (Proc.devRef .tc main_v24)) (W3 m ρ c (Proc.devRef .tc main_v40)) = _
    rw [hsrc_3, wcol_3]; try rfl))

/-! ## After the third stretch -/

set_option maxHeartbeats 8000000 in
theorem agg1_5 : W5 m ρ c (Proc.devRef .tc main_v44) = AGG1 m c := by
  have e : W5 m ρ c (Proc.devRef .tc main_v44) = aggregate (W4 m ρ c (Proc.devRef .tc main_v3)) (W4 m ρ c (Proc.devRef .tc main_v41)) := by
    show StableHlo.after hostOps2 (W4 m ρ c) (Proc.devRef .tc main_v44) = _
    after_results; rfl
  rw [e, (((back4_v3 m ρ c).trans (back3_v3 m ρ c)).trans (back2_v3 m ρ c)), dst_1, msg1_4]; try rfl
set_option maxHeartbeats 8000000 in
theorem b1_5 : W5 m ρ c (Proc.devRef .tc main_v45) = biasRow (m ((c : Thread nD τ).loc main_arg4)) := by
  have e : W5 m ρ c (Proc.devRef .tc main_v45) = biasRow (W4 m ρ c (Proc.devRef .tc main_arg4)) := by
    show StableHlo.after hostOps2 (W4 m ρ c) (Proc.devRef .tc main_v45) = _
    after_results; rfl
  rw [e, ((((back4_arg4 m ρ c).trans (back3_arg4 m ρ c)).trans (back2_arg4 m ρ c)).trans (back1_arg4 m ρ c))]; try rfl
theorem t1_5 : W5 m ρ c (Proc.devRef .tc main_v17) = T1 m c := (((back5_v17 m ρ c).trans (back4_v17 m ρ c)).trans (back3_v17 m ρ c)).trans (t1_2 m ρ c)
theorem col_5 : W5 m ρ c (Proc.devRef .tc main_v16) = nodeColumn (DIS m c) := ((((back5_v16 m ρ c).trans (back4_v16 m ρ c)).trans (back3_v16 m ρ c)).trans (back2_v16 m ρ c)).trans (col_1 m ρ c)

/-! ## After the third call -/

theorem h1_6 : W6 m ρ c (Proc.devRef .tc main_v46) = H1 m c :=
  (W6_arr m ρ c 4).trans ((NodeCombine2.final (V5 m ρ) c).trans (by
    show NodeCombine2.combined (W5 m ρ c (Proc.devRef .tc main_v44)) (W5 m ρ c (Proc.devRef .tc main_v17)) (W5 m ρ c (Proc.devRef .tc main_v16)) (W5 m ρ c (Proc.devRef .tc main_v45)) = _
    rw [agg1_5, t1_5, col_5, b1_5]; try rfl))

end Cert.KernelIdeal.Layer1

end
-- ==== Proof.FeatureMatmul3.lean ====
/-
  The second dense transform, first-layer features times the second weight matrix. Its grid has 10 points; point t stages rows 10000 t … 10000 t + 9999 of the left
  operand (a [100000, 64] array), the whole right operand (a [64, 64] array, the same block at every point), and
  writes the same rows of the [100000, 64] product. The body is one matrix product of the staged blocks into a zero
  accumulator; the change of float format before it is the identity on extended reals. So entry (r, c) of the
  result is the sum over k < 64 of left(r, k) · right(k, c): each block is the restriction of that one function to its
  rows, and the 10 blocks tile the 100000 rows.
-/
import proofs.«121682_j31825707663693_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.FeatureMatmul3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The matrix product of a [100000, 64] array and a [64, 64] array, entry by entry. -/
def product (x : S100000x64.Idx → EReal) (w : S64x64.Idx → EReal) : S100000x64.Idx → EReal :=
  fun i => ∑ k : Fin 64, x (ix2 (i 0) k) * w (ix2 k (i 1))

/-! The block product's operand indices: the left operand is read at (row of the result, k), the right at (k, column). -/

theorem lhs_row (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_k (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhs_k (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhs_col (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's product at row p, column q of a block: the sum over k of the staged left block at (p, k) times the
    right operand at (k, q). -/
theorem pay_apply (x0 : FVec Ideal S10000x64 .f32) (x1 : FVec Ideal S64x64 .f32) (p : Fin 10000) (q : Fin 64) :
    k3_pay1 (F := Ideal) x0 x1 (ix2 p q) = ∑ k : Fin 64, x0 (ix2 p k) * x1 (ix2 k q) := by
  unfold k3_pay1
  rw [shapeCast_self]
  refine (Ideal.matmul_constant_zero_apply dot_S10000x64_S64x64_S10000x64_1_0_0_1_n_n none _ _ (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_k _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_k _ _).trans hk
    | ⟨1, _⟩ => exact rhs_col _ _)
  show x0 (dot_S10000x64_S64x64_S10000x64_1_0_0_1_n_n.lhsIdx (ix2 p q) ((ValueIdx.contrEquiv1 dot_S10000x64_S64x64_S10000x64_1_0_0_1_n_n 64 rfl rfl).symm k))
      * x1 (dot_S10000x64_S64x64_S10000x64_1_0_0_1_n_n.rhsIdx (ix2 p q) ((ValueIdx.contrEquiv1 dot_S10000x64_S64x64_S10000x64_1_0_0_1_n_n 64 rfl rfl).symm k)) = _
  rw [el, er]

/-- The three windows' block indices at point t: the left operand and the result on block row t, the right operand
    always on block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 2000000 in
/-- What point t writes back is block t of the product. -/
theorem flushed_eq (c : Dev nD) (t : Fin cfg3.N) :
    (dat3 V c).flushed 2 t = ((cfg3.win 2).blk t).view.read (Elt Ideal)
      (product (V c (Pipeline.arrRef spec3 0)) (V c (Pipeline.arrRef spec3 1))) := by
  show (cfg3.win 2).cut (grid3.coords t) ((dat3 V c).after 2 t) = _
  rw [after3_2]
  unfold out3_2
  rw [View.canon_unit_zero zero_off]
  simp only [View.ld_unit_zero (S := S10000x64) zero_off, View.ld_unit_zero (S := S64x64) zero_off]
  obtain ⟨e0, e1, e2, e3, e4, e5⟩ := idx_facts t
  funext j
  obtain ⟨p, q, rfl⟩ : ∃ (p : Fin 10000) (q : Fin 64), j = ix2 p q := ⟨j 0, j 1, eq_ix2 j⟩
  show k3_pay1 (iblk3 V c 0 t) (iblk3 V c 1 t) (ix2 p q)
    = product (V c (Pipeline.arrRef spec3 0)) (V c (Pipeline.arrRef spec3 1)) (((cfg3.win 2).blk t).view.emb (ix2 p q))
  refine (pay_apply (iblk3 V c 0 t) (iblk3 V c 1 t) p q).trans ?_
  have h0 : ∀ k : Fin 64, ((cfg3.win 0).blk t).view.emb (ix2 p k)
      = ix2 ((((cfg3.win 2).blk t).view.emb (ix2 p q)) 0) k := fun k => by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * k.val = k.val; omega
  have h1 : ∀ k : Fin 64, ((cfg3.win 1).blk t).view.emb (ix2 k q)
      = ix2 k ((((cfg3.win 2).blk t).view.emb (ix2 p q)) 1) := fun k => by
    funext a; apply Fin.ext
    match a with
    | ⟨0, _⟩ => show win3_1.index t (0 : Fin 2) * 64 + 1 * k.val = k.val; omega
    | ⟨1, _⟩ => show win3_1.index t (1 : Fin 2) * 64 + 1 * q.val = win3_2.index t (1 : Fin 2) * 64 + 1 * q.val; omega
  have key : ∀ (A : S100000x64.Idx → EReal) (B : S64x64.Idx → EReal),
      (∑ k : Fin 64, A (((cfg3.win 0).blk t).view.emb (ix2 p k)) * B (((cfg3.win 1).blk t).view.emb (ix2 k q)))
        = product A B (((cfg3.win 2).blk t).view.emb (ix2 p q)) := by
    intro A B
    unfold product
    refine Finset.sum_congr rfl fun k _ => ?_
    rw [h0 k, h1 k] <;> rfl
  exact key (V c (Pipeline.arrRef spec3 0)) (V c (Pipeline.arrRef spec3 1))

/-- An index of the result array is in point t's block iff each coordinate is in the block's range. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v47).slice (win3_2.rect t)).set ↔ _
  rw [View.set_slice_whole, Rect.mem_set_unit]
  exact Iff.rfl

/-- Row r lies in the block of point r / 10000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 10000, by rw [show cfg3.N = 10 from N_3]; omega⟩
  obtain ⟨e0, e1, e2, e3, e4, e5⟩ := idx_facts t
  refine ⟨t, flush3_2 t, ?_⟩
  rw [mem_blk]
  intro a
  have ht : t.val = (i 0).val / 10000 := rfl
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the call the result array holds the product of the two operand arrays as the call found them. -/
theorem final (c : Dev nD) : (dat3 V c).arrAt 2 cfg3.N
    = product (V c (Pipeline.arrRef spec3 0)) (V c (Pipeline.arrRef spec3 1)) :=
  (dat3 V c).arrAt_eq_of_cover 2 _ (fun t _ => flushed_eq V c t) cover

end Cert.KernelIdeal.FeatureMatmul3

end
-- ==== Proof.EdgeScale4.lean ====
/-
  The second edge-scaling call. Its grid has 125 points; point t stages rows 8000 t … 8000 t + 7999 of the gathered
  source features (a [1000000, 64] array), the same rows of the edge-weight column (a [1000000, 1] array), and writes
  the same rows of the message array. The body multiplies each staged row by that row's weight, the column broadcast
  along the 64 lanes. So entry (e, c) of the message array is (source features)(e, c) · weight(e, 0): the blocks are
  the restrictions of that one function, and the 125 blocks tile the 1000000 rows.
-/
import proofs.«121682_j31825707663693_2_alg».proof.Proof.Gen.KernelIdeal.Frame
import Idealize.ShloMosaic.Lib.ValueIdx
import Idealize.ShloMosaic.Lib.Pipeline.Value

set_option maxRecDepth 16384

noncomputable section

namespace Cert.KernelIdeal.EdgeScale4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Each row of features times that row's weight. -/
def scaled (hs : S1000000x64.Idx → EReal) (nm : S1000000x1.Idx → EReal) : S1000000x64.Idx → EReal :=
  fun i => hs i * nm (ix2 (i 0) (0 : Fin 1))

/-- The body's product at row p, lane q of a block: the feature entry times the row's weight. -/
theorem pay_apply (x0 : FVec Ideal S8000x64 .f32) (x1 : FVec Ideal S8000x1 .f32) (p : Fin 8000) (q : Fin 64) :
    k4_pay1 (F := Ideal) x0 x1 (ix2 p q) = x0 (ix2 p q) * x1 (ix2 p (0 : Fin 1)) := by
  unfold k4_pay1
  rw [shapeCast_self, shapeCast_self]
  show x0 (ix2 p q) * broadcastTo S8000x64 x1 broadcasts_S8000x1_S8000x64 (ix2 p q) = _
  refine congrArg (x0 (ix2 p q) * ·) ?_
  refine broadcastTo_apply _ _ _ (ix2 p (0 : Fin 1)) fun a => ?_
  match a with
  | ⟨0, _⟩ => rfl
  | ⟨1, _⟩ => rfl

/-- The three windows' block indices at point t: all on block row t, block column 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

set_option maxHeartbeats 2000000 in
/-- What point t writes back is block t of the scaled array. -/
theorem flushed_eq (c : Dev nD) (t : Fin cfg4.N) :
    (dat4 V c).flushed 2 t = ((cfg4.win 2).blk t).view.read (Elt Ideal)
      (scaled (V c (Pipeline.arrRef spec4 0)) (V c (Pipeline.arrRef spec4 1))) := by
  show (cfg4.win 2).cut (grid4.coords t) ((dat4 V c).after 2 t) = _
  rw [after4_2]
  unfold out4_2
  rw [View.canon_unit_zero zero_off]
  simp only [View.ld_unit_zero (S := S8000x64) zero_off, View.ld_unit_zero (S := S8000x1) zero_off]
  obtain ⟨e0, e1, e2, e3, e4, e5⟩ := idx_facts t
  funext j
  obtain ⟨p, q, rfl⟩ : ∃ (p : Fin 8000) (q : Fin 64), j = ix2 p q := ⟨j 0, j 1, eq_ix2 j⟩
  show k4_pay1 (iblk4 V c 0 t) (iblk4 V c 1 t) (ix2 p q)
    = scaled (V c (Pipeline.arrRef spec4 0)) (V c (Pipeline.arrRef spec4 1)) (((cfg4.win 2).blk t).view.emb (ix2 p q))
  refine (pay_apply (iblk4 V c 0 t) (iblk4 V c 1 t) p q).trans ?_
  have h0 : ((cfg4.win 0).blk t).view.emb (ix2 p q) = ((cfg4.win 2).blk t).view.emb (ix2 p q) := by
    funext a; apply Fin.ext
    match a with
    | ⟨0, _⟩ => show win4_0.index t (0 : Fin 2) * 8000 + 1 * p.val = win4_2.index t (0 : Fin 2) * 8000 + 1 * p.val; omega
    | ⟨1, _⟩ => show win4_0.index t (1 : Fin 2) * 64 + 1 * q.val = win4_2.index t (1 : Fin 2) * 64 + 1 * q.val; omega
  have h1 : ((cfg4.win 1).blk t).view.emb (ix2 p (0 : Fin 1))
      = ix2 ((((cfg4.win 2).blk t).view.emb (ix2 p q)) 0) (0 : Fin 1) := by
    funext a; apply Fin.ext
    match a with
    | ⟨0, _⟩ => show win4_1.index t (0 : Fin 2) * 8000 + 1 * p.val = win4_2.index t (0 : Fin 2) * 8000 + 1 * p.val; omega
    | ⟨1, _⟩ => show win4_1.index t (1 : Fin 2) * 1 + 1 * 0 = 0; omega
  have key : ∀ (A : S1000000x64.Idx → EReal) (B : S1000000x1.Idx → EReal),
      A (((cfg4.win 0).blk t).view.emb (ix2 p q)) * B (((cfg4.win 1).blk t).view.emb (ix2 p (0 : Fin 1)))
        = scaled A B (((cfg4.win 2).blk t).view.emb (ix2 p q)) := by
    intro A B
    unfold scaled
    rw [h0, h1] <;> rfl
  exact key (V c (Pipeline.arrRef spec4 0)) (V c (Pipeline.arrRef spec4 1))

/-- An index of the message array is in point t's block iff each coordinate is in the block's range. -/
theorem mem_blk (t : Fin cfg4.N) (i : S1000000x64.Idx) :
    i ∈ ((cfg4.win 2).blk t).view.set ↔ ∀ a : Fin 2, win4_2.index t a * S8000x64.size a ≤ (i a).val ∧ (i a).val < win4_2.index t a * S8000x64.size a + S8000x64.size a := by
  show i ∈ ((View.whole main_v71).slice (win4_2.rect t)).set ↔ _
  rw [View.set_slice_whole, Rect.mem_set_unit]
  exact Iff.rfl

/-- Row e lies in the block of point e / 8000. -/
theorem cover (i : S1000000x64.Idx) : ∃ t : Fin cfg4.N, (cfg4.win 2).flush t = true ∧ i ∈ ((cfg4.win 2).blk t).view.set := by
  have hi0 : (i 0).val < 1000000 := (i 0).isLt
  have hi1 : (i 1).val < 64 := (i 1).isLt
  let t : Fin cfg4.N := ⟨(i 0).val / 8000, by rw [show cfg4.N = 125 from N_4]; omega⟩
  obtain ⟨e0, e1, e2, e3, e4, e5⟩ := idx_facts t
  refine ⟨t, flush4_2 t, ?_⟩
  rw [mem_blk]
  intro a
  have ht : t.val = (i 0).val / 8000 := rfl
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 64 ≤ (i 1).val ∧ (i 1).val < win4_2.index t (1 : Fin 2) * 64 + 64; omega

/-- After the call the message array holds the scaled array of the two operand arrays as the call found them. -/
theorem final (c : Dev nD) : (dat4 V c).arrAt 2 cfg4.N
    = scaled (V c (Pipeline.arrRef spec4 0)) (V c (Pipeline.arrRef spec4 1)) :=
  (dat4 V c).arrAt_eq_of_cover 2 _ (fun t _ => flushed_eq V c t) cover

end Cert.KernelIdeal.EdgeScale4

end
-- ==== Proof.NodeCombine5.lean ====
/-
  The second layer's combine step. Its grid has 10 points; point t stages rows 10000 t … 10000 t + 9999 of the aggregated
  messages and of the transformed features (two [100000, 64] arrays), the same rows of the inverse-square-root degree
  column (a [100000, 1] array), the whole bias row (a [1, 64] array, the same block at every point), and writes the same
  rows of the [100000, 64] result. The body adds to each aggregated entry the transformed entry times the square of
  its row's column entry, adds the bias of its lane, and takes the maximum with zero. So entry (r, c) of the result is
  max ((agg(r, c) + h(r, c) · (d(r, 0) · d(r, 0))) + b(0, c), 0): the blocks restrict that one function, and the 10
  blocks tile the 100000 rows.
-/
import proofs.«121682_j31825707663693_2_alg».proof.Proof.Gen.KernelIdeal.Frame
import Idealize.ShloMosaic.Lib.ValueIdx
import Idealize.ShloMosaic.Lib.Pipeline.Value

set_option maxRecDepth 16384

noncomputable section

namespace Cert.KernelIdeal.NodeCombine5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- Aggregate plus self-loop term plus bias, clamped below at zero, entry by entry. -/
def combined (agg h : S100000x64.Idx → EReal) (d : S100000x1.Idx → EReal) (b : S1x64.Idx → EReal) : S100000x64.Idx → EReal :=
  fun i => max ((agg i + h i * (d (ix2 (i 0) (0 : Fin 1)) * d (ix2 (i 0) (0 : Fin 1)))) + b (ix2 (0 : Fin 1) (i 1)))
    (Scalar.ofBits (F := Ideal) .f32 0x00000000#32)

/-- A column broadcast along the lanes reads the row's one entry. -/
theorem col_bcast (v : FVec Ideal S10000x1 .f32) (p : Fin 10000) (q : Fin 64) :
    broadcastTo S10000x64 v broadcasts_S10000x1_S10000x64 (ix2 p q) = v (ix2 p (0 : Fin 1)) :=
  broadcastTo_apply v _ _ (ix2 p (0 : Fin 1)) fun a => by
    match a with
    | ⟨0, _⟩ => rfl
    | ⟨1, _⟩ => rfl

/-- A row broadcast along the rows reads the lane's one entry. -/
theorem row_bcast (v : FVec Ideal S1x64 .f32) (p : Fin 10000) (q : Fin 64) :
    broadcastTo S10000x64 v broadcasts_S1x64_S10000x64 (ix2 p q) = v (ix2 (0 : Fin 1) q) :=
  broadcastTo_apply v _ _ (ix2 (0 : Fin 1) q) fun a => by
    match a with
    | ⟨0, _⟩ => rfl
    | ⟨1, _⟩ => rfl

/-- The body's value at row p, lane q of a block. -/
theorem pay_apply (v0 : FVec Ideal S10000x1 .f32) (v2 v4 : FVec Ideal S10000x64 .f32) (v10 : FVec Ideal S1x64 .f32)
    (p : Fin 10000) (q : Fin 64) :
    k5_pay1 (F := Ideal) v0 v2 v4 v10 (ix2 p q)
      = max ((v2 (ix2 p q) + v4 (ix2 p q) * (v0 (ix2 p (0 : Fin 1)) * v0 (ix2 p (0 : Fin 1)))) + v10 (ix2 (0 : Fin 1) q))
          (Scalar.ofBits (F := Ideal) .f32 0x00000000#32) := by
  unfold k5_pay1
  simp only [shapeCast_self]
  show max ((v2 (ix2 p q) + v4 (ix2 p q) * broadcastTo S10000x64 (mulf v0 v0) broadcasts_S10000x1_S10000x64 (ix2 p q))
      + broadcastTo S10000x64 v10 broadcasts_S1x64_S10000x64 (ix2 p q)) (Scalar.ofBits (F := Ideal) .f32 0x00000000#32) = _
  rw [col_bcast, row_bcast]
  rfl

/-- The five windows' block indices at point t: the bias row always on block (0, 0), the others on block row t. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

set_option maxHeartbeats 2000000 in
/-- What point t writes back is block t of the combined array. -/
theorem flushed_eq (c : Dev nD) (t : Fin cfg5.N) :
    (dat5 V c).flushed 4 t = ((cfg5.win 4).blk t).view.read (Elt Ideal)
      (combined (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero zero_off]
  simp only [View.ld_unit_zero (S := S10000x64) zero_off, View.ld_unit_zero (S := S10000x1) zero_off, View.ld_unit_zero (S := S1x64) zero_off]
  obtain ⟨e0, e1, e2, e3, e4, e5, e6, e7, e8, e9⟩ := idx_facts t
  funext j
  obtain ⟨p, q, rfl⟩ : ∃ (p : Fin 10000) (q : Fin 64), j = ix2 p q := ⟨j 0, j 1, eq_ix2 j⟩
  show k5_pay1 (iblk5 V c 2 t) (iblk5 V c 0 t) (iblk5 V c 1 t) (iblk5 V c 3 t) (ix2 p q)
    = combined (V c (Pipeline.arrRef spec5 0)) (V c (Pipeline.arrRef spec5 1)) (V c (Pipeline.arrRef spec5 2)) (V c (Pipeline.arrRef spec5 3))
        (((cfg5.win 4).blk t).view.emb (ix2 p q))
  refine (pay_apply (iblk5 V c 2 t) (iblk5 V c 0 t) (iblk5 V c 1 t) (iblk5 V c 3 t) p q).trans ?_
  have h0 : ((cfg5.win 0).blk t).view.emb (ix2 p q) = ((cfg5.win 4).blk t).view.emb (ix2 p q) := by
    funext a; apply Fin.ext
    match a with
    | ⟨0, _⟩ => show win5_0.index t (0 : Fin 2) * 10000 + 1 * p.val = win5_4.index t (0 : Fin 2) * 10000 + 1 * p.val; omega
    | ⟨1, _⟩ => show win5_0.index t (1 : Fin 2) * 64 + 1 * q.val = win5_4.index t (1 : Fin 2) * 64 + 1 * q.val; omega
  have h1 : ((cfg5.win 1).blk t).view.emb (ix2 p q) = ((cfg5.win 4).blk t).view.emb (ix2 p q) := by
    funext a; apply Fin.ext
    match a with
    | ⟨0, _⟩ => show win5_1.index t (0 : Fin 2) * 10000 + 1 * p.val = win5_4.index t (0 : Fin 2) * 10000 + 1 * p.val; omega
    | ⟨1, _⟩ => show win5_1.index t (1 : Fin 2) * 64 + 1 * q.val = win5_4.index t (1 : Fin 2) * 64 + 1 * q.val; omega
  have h2 : ((cfg5.win 2).blk t).view.emb (ix2 p (0 : Fin 1))
      = ix2 ((((cfg5.win 4).blk t).view.emb (ix2 p q)) 0) (0 : Fin 1) := by
    funext a; apply Fin.ext
    match a with
    | ⟨0, _⟩ => show win5_2.index t (0 : Fin 2) * 10000 + 1 * p.val = win5_4.index t (0 : Fin 2) * 10000 + 1 * p.val; omega
    | ⟨1, _⟩ => show win5_2.index t (1 : Fin 2) * 1 + 1 * 0 = 0; omega
  have h3 : ((cfg5.win 3).blk t).view.emb (ix2 (0 : Fin 1) q)
      = ix2 (0 : Fin 1) ((((cfg5.win 4).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 64 + 1 * q.val = win5_4.index t (1 : Fin 2) * 64 + 1 * q.val; omega
  have key : ∀ (A0 A1 : S100000x64.Idx → EReal) (A2 : S100000x1.Idx → EReal) (A3 : S1x64.Idx → EReal),
      max ((A0 (((cfg5.win 0).blk t).view.emb (ix2 p q)) + A1 (((cfg5.win 1).blk t).view.emb (ix2 p q))
            * (A2 (((cfg5.win 2).blk t).view.emb (ix2 p (0 : Fin 1))) * A2 (((cfg5.win 2).blk t).view.emb (ix2 p (0 : Fin 1)))))
          + A3 (((cfg5.win 3).blk t).view.emb (ix2 (0 : Fin 1) q))) (Scalar.ofBits (F := Ideal) .f32 0x00000000#32)
        = combined A0 A1 A2 A3 (((cfg5.win 4).blk t).view.emb (ix2 p q)) := by
    intro A0 A1 A2 A3
    unfold combined
    rw [h0, h1, h2, h3] <;> rfl
  exact key (V c (Pipeline.arrRef spec5 0)) (V c (Pipeline.arrRef spec5 1)) (V c (Pipeline.arrRef spec5 2)) (V c (Pipeline.arrRef spec5 3))

/-- An index of the result array is in point t's block iff each coordinate is in the block's range. -/
theorem mem_blk (t : Fin cfg5.N) (i : S100000x64.Idx) :
    i ∈ ((cfg5.win 4).blk t).view.set ↔ ∀ a : Fin 2, win5_4.index t a * S10000x64.size a ≤ (i a).val ∧ (i a).val < win5_4.index t a * S10000x64.size a + S10000x64.size a := by
  show i ∈ ((View.whole main_v76).slice (win5_4.rect t)).set ↔ _
  rw [View.set_slice_whole, Rect.mem_set_unit]
  exact Iff.rfl

/-- Row r lies in the block of point r / 10000. -/
theorem cover (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  let t : Fin cfg5.N := ⟨(i 0).val / 10000, by rw [show cfg5.N = 10 from N_5]; omega⟩
  obtain ⟨e0, e1, e2, e3, e4, e5, e6, e7, e8, e9⟩ := idx_facts t
  refine ⟨t, flush5_4 t, ?_⟩
  rw [mem_blk]
  intro a
  have ht : t.val = (i 0).val / 10000 := rfl
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 64 ≤ (i 1).val ∧ (i 1).val < win5_4.index t (1 : Fin 2) * 64 + 64; omega

/-- After the call the result array holds the combined array of the four operand arrays as the call found them. -/
theorem final (c : Dev nD) : (dat5 V c).arrAt 4 cfg5.N
    = combined (V c (Pipeline.arrRef spec5 0)) (V c (Pipeline.arrRef spec5 1)) (V c (Pipeline.arrRef spec5 2)) (V c (Pipeline.arrRef spec5 3)) :=
  (dat5 V c).arrAt_eq_of_cover 4 _ (fun t _ => flushed_eq V c t) cover

end Cert.KernelIdeal.NodeCombine5

end
-- ==== Proof.KernelLayer2.lean ====
/-
  The second layer of the kernel program, read off its run: the fourth call leaves the product of the first layer's
  output and the second weight matrix; the next stretch of host operations gathers its rows at the sources and forms the
  edge-weight column again; the fifth call leaves the scaled messages; the next stretch adds them up at the (unwrapped)
  targets and lays the second bias out as a row; the sixth call leaves the second layer's output. The sources, the
  targets, the inverse-square-root degree and its column are carried from the first stretch across every boundary in
  between; the column passes through the third call as one of its input windows, which a call leaves as it found it.
-/
import proofs.«121682_j31825707663693_2_alg».proof.Proof.KernelLayer1
import proofs.«121682_j31825707663693_2_alg».proof.Proof.FeatureMatmul3
import proofs.«121682_j31825707663693_2_alg».proof.Proof.EdgeScale4
import proofs.«121682_j31825707663693_2_alg».proof.Proof.NodeCombine5

set_option maxRecDepth 16384

noncomputable section

namespace Cert.KernelIdeal.Layer2

open Cert.KernelIdeal Cert.KernelIdeal.Gen Cert.KernelIdeal.Stages
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

open Cert.KernelIdeal.Layer1

/-! ## The stages' values, named -/

/-- The second layer: transformed features, scaled messages, aggregate, output. -/
def T2 : S100000x64.Idx → EReal := FeatureMatmul3.product (H1 m c) (m ((c : Thread nD τ).loc main_arg5))
def MSG2 : S1000000x64.Idx → EReal := EdgeScale4.scaled (gatherRows (T2 m c) (SRC m c)) (WCOL m c)
def AGG2 : S100000x64.Idx → EReal := aggregate (DST m c) (MSG2 m c)
def H2 : S100000x64.Idx → EReal := NodeCombine5.combined (AGG2 m c) (T2 m c) (nodeColumn (DIS m c)) (biasRow (m ((c : Thread nD τ).loc main_arg6)))

/-! ## Buffers carried back across a boundary -/

theorem back6_arg5 : W6 m ρ c (Proc.devRef .tc main_arg5) = W5 m ρ c (Proc.devRef .tc main_arg5) := W6_of_ne m ρ c main_arg5 (by decide)
theorem back5_arg5 : W5 m ρ c (Proc.devRef .tc main_arg5) = W4 m ρ c (Proc.devRef .tc main_arg5) := by host_skip
theorem back4_arg5 : W4 m ρ c (Proc.devRef .tc main_arg5) = W3 m ρ c (Proc.devRef .tc main_arg5) := W4_of_ne m ρ c main_arg5 (by decide)
theorem back3_arg5 : W3 m ρ c (Proc.devRef .tc main_arg5) = W2 m ρ c (Proc.devRef .tc main_arg5) := by host_skip
theorem back2_arg5 : W2 m ρ c (Proc.devRef .tc main_arg5) = W1 m ρ c (Proc.devRef .tc main_arg5) := W2_of_ne m ρ c main_arg5 (by decide)
theorem back1_arg5 : W1 m ρ c (Proc.devRef .tc main_arg5) = W0 m ρ c (Proc.devRef .tc main_arg5) := by host_skip
theorem back7_v1 : W7 m ρ c (Proc.devRef .tc main_v1) = W6 m ρ c (Proc.devRef .tc main_v1) := W7_of_ne m ρ c main_v1 (by decide)
theorem back6_v1 : W6 m ρ c (Proc.devRef .tc main_v1) = W5 m ρ c (Proc.devRef .tc main_v1) := W6_of_ne m ρ c main_v1 (by decide)
theorem back5_v1 : W5 m ρ c (Proc.devRef .tc main_v1) = W4 m ρ c (Proc.devRef .tc main_v1) := by host_skip
theorem back4_v1 : W4 m ρ c (Proc.devRef .tc main_v1) = W3 m ρ c (Proc.devRef .tc main_v1) := W4_of_ne m ρ c main_v1 (by decide)
theorem back3_v1 : W3 m ρ c (Proc.devRef .tc main_v1) = W2 m ρ c (Proc.devRef .tc main_v1) := by host_skip
theorem back7_v3 : W7 m ρ c (Proc.devRef .tc main_v3) = W6 m ρ c (Proc.devRef .tc main_v3) := W7_of_ne m ρ c main_v3 (by decide)
theorem back6_v3 : W6 m ρ c (Proc.devRef .tc main_v3) = W5 m ρ c (Proc.devRef .tc main_v3) := W6_of_ne m ρ c main_v3 (by decide)
theorem back5_v3 : W5 m ρ c (Proc.devRef .tc main_v3) = W4 m ρ c (Proc.devRef .tc main_v3) := by host_skip
theorem back7_v15 : W7 m ρ c (Proc.devRef .tc main_v15) = W6 m ρ c (Proc.devRef .tc main_v15) := W7_of_ne m ρ c main_v15 (by decide)
theorem back6_v15 : W6 m ρ c (Proc.devRef .tc main_v15) = W5 m ρ c (Proc.devRef .tc main_v15) := W6_of_ne m ρ c main_v15 (by decide)
theorem back5_v15 : W5 m ρ c (Proc.devRef .tc main_v15) = W4 m ρ c (Proc.devRef .tc main_v15) := by host_skip
theorem back4_v15 : W4 m ρ c (Proc.devRef .tc main_v15) = W3 m ρ c (Proc.devRef .tc main_v15) := W4_of_ne m ρ c main_v15 (by decide)
theorem back3_v15 : W3 m ρ c (Proc.devRef .tc main_v15) = W2 m ρ c (Proc.devRef .tc main_v15) := by host_skip
theorem back9_v3 : W9 m ρ c (Proc.devRef .tc main_v3) = W8 m ρ c (Proc.devRef .tc main_v3) := W9_of_ne m ρ c main_v3 (by decide)
theorem back8_v3 : W8 m ρ c (Proc.devRef .tc main_v3) = W7 m ρ c (Proc.devRef .tc main_v3) := by host_skip
theorem back9_arg6 : W9 m ρ c (Proc.devRef .tc main_arg6) = W8 m ρ c (Proc.devRef .tc main_arg6) := W9_of_ne m ρ c main_arg6 (by decide)
theorem back8_arg6 : W8 m ρ c (Proc.devRef .tc main_arg6) = W7 m ρ c (Proc.devRef .tc main_arg6) := by host_skip
theorem back7_arg6 : W7 m ρ c (Proc.devRef .tc main_arg6) = W6 m ρ c (Proc.devRef .tc main_arg6) := W7_of_ne m ρ c main_arg6 (by decide)
theorem back6_arg6 : W6 m ρ c (Proc.devRef .tc main_arg6) = W5 m ρ c (Proc.devRef .tc main_arg6) := W6_of_ne m ρ c main_arg6 (by decide)
theorem back5_arg6 : W5 m ρ c (Proc.devRef .tc main_arg6) = W4 m ρ c (Proc.devRef .tc main_arg6) := by host_skip
theorem back4_arg6 : W4 m ρ c (Proc.devRef .tc main_arg6) = W3 m ρ c (Proc.devRef .tc main_arg6) := W4_of_ne m ρ c main_arg6 (by decide)
theorem back3_arg6 : W3 m ρ c (Proc.devRef .tc main_arg6) = W2 m ρ c (Proc.devRef .tc main_arg6) := by host_skip
theorem back2_arg6 : W2 m ρ c (Proc.devRef .tc main_arg6) = W1 m ρ c (Proc.devRef .tc main_arg6) := W2_of_ne m ρ c main_arg6 (by decide)
theorem back1_arg6 : W1 m ρ c (Proc.devRef .tc main_arg6) = W0 m ρ c (Proc.devRef .tc main_arg6) := by host_skip
theorem back10_v47 : W10 m ρ c (Proc.devRef .tc main_v47) = W9 m ρ c (Proc.devRef .tc main_v47) := by host_skip
theorem back9_v47 : W9 m ρ c (Proc.devRef .tc main_v47) = W8 m ρ c (Proc.devRef .tc main_v47) := W9_of_ne m ρ c main_v47 (by decide)
theorem back8_v47 : W8 m ρ c (Proc.devRef .tc main_v47) = W7 m ρ c (Proc.devRef .tc main_v47) := by host_skip
theorem back10_v16 : W10 m ρ c (Proc.devRef .tc main_v16) = W9 m ρ c (Proc.devRef .tc main_v16) := by host_skip
theorem back9_v16 : W9 m ρ c (Proc.devRef .tc main_v16) = W8 m ρ c (Proc.devRef .tc main_v16) := W9_of_ne m ρ c main_v16 (by decide)
theorem back8_v16 : W8 m ρ c (Proc.devRef .tc main_v16) = W7 m ρ c (Proc.devRef .tc main_v16) := by host_skip
theorem back7_v16 : W7 m ρ c (Proc.devRef .tc main_v16) = W6 m ρ c (Proc.devRef .tc main_v16) := W7_of_ne m ρ c main_v16 (by decide)
theorem back6_v16 : W6 m ρ c (Proc.devRef .tc main_v16) = W5 m ρ c (Proc.devRef .tc main_v16) := (W6_arr m ρ c 2).trans (((dat2 (V5 m ρ) c).arrAt_in 2 rfl _).trans (A_eq2 (V5 m ρ) c 2))

/-! ## After the fourth call -/

theorem t2_7 : W7 m ρ c (Proc.devRef .tc main_v47) = T2 m c :=
  (W7_arr m ρ c 2).trans ((FeatureMatmul3.final (V6 m ρ) c).trans (by
    show FeatureMatmul3.product (W6 m ρ c (Proc.devRef .tc main_v46)) (W6 m ρ c (Proc.devRef .tc main_arg5)) = _
    rw [h1_6, ((((((back6_arg5 m ρ c).trans (back5_arg5 m ρ c)).trans (back4_arg5 m ρ c)).trans (back3_arg5 m ρ c)).trans (back2_arg5 m ρ c)).trans (back1_arg5 m ρ c))]; try rfl))

/-! ## After the next stretch of host operations -/

set_option maxHeartbeats 8000000 in
theorem hsrc_8 : W8 m ρ c (Proc.devRef .tc main_v54) = gatherRows (T2 m c) (SRC m c) := by
  have e : W8 m ρ c (Proc.devRef .tc main_v54) = gatherRows (W7 m ρ c (Proc.devRef .tc main_v47)) (W7 m ρ c (Proc.devRef .tc main_v1)) := by
    show StableHlo.after hostOps4 (W7 m ρ c) (Proc.devRef .tc main_v54) = _
    after_results; rfl
  rw [e, t2_7, ((((((back7_v1 m ρ c).trans (back6_v1 m ρ c)).trans (back5_v1 m ρ c)).trans (back4_v1 m ρ c)).trans (back3_v1 m ρ c)).trans (back2_v1 m ρ c)), src_1]
set_option maxHeartbeats 8000000 in
theorem wcol_8 : W8 m ρ c (Proc.devRef .tc main_v70) = WCOL m c := by
  have e : W8 m ρ c (Proc.devRef .tc main_v70) = edgeColumn (edgeWeights (W7 m ρ c (Proc.devRef .tc main_v15)) (W7 m ρ c (Proc.devRef .tc main_v1)) (W7 m ρ c (Proc.devRef .tc main_v3))) := by
    show StableHlo.after hostOps4 (W7 m ρ c) (Proc.devRef .tc main_v70) = _
    after_results; rfl
  rw [e, ((((((back7_v15 m ρ c).trans (back6_v15 m ρ c)).trans (back5_v15 m ρ c)).trans (back4_v15 m ρ c)).trans (back3_v15 m ρ c)).trans (back2_v15 m ρ c)), dis_1, ((((((back7_v1 m ρ c).trans (back6_v1 m ρ c)).trans (back5_v1 m ρ c)).trans (back4_v1 m ρ c)).trans (back3_v1 m ρ c)).trans (back2_v1 m ρ c)), src_1, ((((((back7_v3 m ρ c).trans (back6_v3 m ρ c)).trans (back5_v3 m ρ c)).trans (back4_v3 m ρ c)).trans (back3_v3 m ρ c)).trans (back2_v3 m ρ c)), dst_1]; try rfl

/-! ## After the fifth call -/

theorem msg2_9 : W9 m ρ c (Proc.devRef .tc main_v71) = MSG2 m c :=
  (W9_arr m ρ c 2).trans ((EdgeScale4.final (V8 m ρ) c).trans (by
    show EdgeScale4.scaled (W8 m ρ c (Proc.devRef .tc main_v54)) (W8 m ρ c (Proc.devRef .tc main_v70)) = _
    rw [hsrc_8, wcol_8]; try rfl))

/-! ## After the next stretch -/

set_option maxHeartbeats 8000000 in
theorem agg2_10 : W10 m ρ c (Proc.devRef .tc main_v74) = AGG2 m c := by
  have e : W10 m ρ c (Proc.devRef .tc main_v74) = aggregate (W9 m ρ c (Proc.devRef .tc main_v3)) (W9 m ρ c (Proc.devRef .tc main_v71)) := by
    show StableHlo.after hostOps5 (W9 m ρ c) (Proc.devRef .tc main_v74) = _
    after_results; rfl
  rw [e, ((((((((back9_v3 m ρ c).trans (back8_v3 m ρ c)).trans (back7_v3 m ρ c)).trans (back6_v3 m ρ c)).trans (back5_v3 m ρ c)).trans (back4_v3 m ρ c)).trans (back3_v3 m ρ c)).trans (back2_v3 m ρ c)), dst_1, msg2_9]; try rfl
set_option maxHeartbeats 8000000 in
theorem b2_10 : W10 m ρ c (Proc.devRef .tc main_v75) = biasRow (m ((c : Thread nD τ).loc main_arg6)) := by
  have e : W10 m ρ c (Proc.devRef .tc main_v75) = biasRow (W9 m ρ c (Proc.devRef .tc main_arg6)) := by
    show StableHlo.after hostOps5 (W9 m ρ c) (Proc.devRef .tc main_v75) = _
    after_results; rfl
  rw [e, (((((((((back9_arg6 m ρ c).trans (back8_arg6 m ρ c)).trans (back7_arg6 m ρ c)).trans (back6_arg6 m ρ c)).trans (back5_arg6 m ρ c)).trans (back4_arg6 m ρ c)).trans (back3_arg6 m ρ c)).trans (back2_arg6 m ρ c)).trans (back1_arg6 m ρ c))]; try rfl
theorem t2_10 : W10 m ρ c (Proc.devRef .tc main_v47) = T2 m c := (((back10_v47 m ρ c).trans (back9_v47 m ρ c)).trans (back8_v47 m ρ c)).trans (t2_7 m ρ c)
theorem col_10 : W10 m ρ c (Proc.devRef .tc main_v16) = nodeColumn (DIS m c) := (((((((((back10_v16 m ρ c).trans (back9_v16 m ρ c)).trans (back8_v16 m ρ c)).trans (back7_v16 m ρ c)).trans (back6_v16 m ρ c)).trans (back5_v16 m ρ c)).trans (back4_v16 m ρ c)).trans (back3_v16 m ρ c)).trans (back2_v16 m ρ c)).trans (col_1 m ρ c)

/-! ## After the sixth call -/

theorem h2_11 : W11 m ρ c (Proc.devRef .tc main_v76) = H2 m c :=
  (W11_arr m ρ c 4).trans ((NodeCombine5.final (V10 m ρ) c).trans (by
    show NodeCombine5.combined (W10 m ρ c (Proc.devRef .tc main_v74)) (W10 m ρ c (Proc.devRef .tc main_v47)) (W10 m ρ c (Proc.devRef .tc main_v16)) (W10 m ρ c (Proc.devRef .tc main_v75)) = _
    rw [agg2_10, t2_10, col_10, b2_10]; try rfl))

end Cert.KernelIdeal.Layer2

end
-- ==== Proof.ReferenceStages.lean ====
/-
  The reference program as a composition of stages. Its degree vector adds one per edge, at the wrapped target, into a
  vector of ones. One layer, given the transformed features t, is: the rows of t gathered at the wrapped sources, each
  times its edge's weight (the weight vector broadcast to a column and then along the 64 lanes), added up at the
  WRAPPED targets into zeros; plus t times the squared inverse-square-root degree of its row (broadcast the same two
  steps); plus the bias of its lane (broadcast to a row and then along the rows); the maximum of that with zero. The whole
  result is the pooled head of the second layer, whose features are the first layer's output times the second weight
  matrix, the first layer's being the node features times the first weight matrix.
-/
import proofs.«121682_j31825707663693_2_alg».proof.Proof.Gen.ReferenceIdeal.Run
import Idealize.ShloMosaic.PureOps.Ideal

set_option maxRecDepth 16384

noncomputable section

namespace Cert.ReferenceIdeal.Stages

open Cert.ReferenceIdeal Cert.ReferenceIdeal.Gen
open Idealize.ShloMosaic Idealize.ShloMosaic.TcCoe Idealize.SL.Sem

/-- Row 0 of the edge list: each edge's source node. -/
def sources (ei : IVec S2x1000000 32) : IVec S1000000 32 :=
  shapeCast S1000000 (extractStridedSlice S1x1000000 ![0, 0] ei slices_S2x1000000_S1x1000000_0_0) shapeCasts_S1x1000000_S1000000

/-- Row 1 of the edge list: each edge's target node. -/
def targets (ei : IVec S2x1000000 32) : IVec S1000000 32 :=
  shapeCast S1000000 (extractStridedSlice S1x1000000 ![1, 0] ei slices_S2x1000000_S1x1000000_1_0) shapeCasts_S1x1000000_S1000000

/-- The negative-index wrap against the node count: an entry below zero has 100000 added. -/
def wrapped (d : IVec S1000000 32) : IVec S1000000 32 :=
  select (cmpi .slt d (broadcastInDim S1000000 ![] bcast_S_S1000000 (constantI S_ 32 0#32)))
    (addi d (broadcastInDim S1000000 ![] bcast_S_S1000000 (constantI S_ 32 100000#32))) d

/-- An index vector as the [1000000, 1] column a gather or scatter takes. -/
def asIndex (d : IVec S1000000 32) : IVec S1000000x1 32 :=
  broadcastInDim S1000000x1 ![0] bcast_S1000000_S1000000x1_0 d

/-- Feature rows gathered at the wrapped sources. -/
def gatherRows (h : FVec Ideal S100000x64 .f32) (src : IVec S1000000 32) : FVec Ideal S1000000x64 .f32 :=
  Host.gather gather_S100000x64_S1000000x1_S1000000x64_1_0_n_n_0_1_164 h (asIndex (wrapped src))

/-- The edge weights: the node vector at the wrapped source times the node vector at the wrapped target. -/
def edgeWeights (d : FVec Ideal S100000 .f32) (src dst : IVec S1000000 32) : FVec Ideal S1000000 .f32 :=
  mulf (Host.gather gather_S100000_S1000000x1_S1000000_n_0_n_n_0_1_1 d (asIndex (wrapped src)))
    (Host.gather gather_S100000_S1000000x1_S1000000_n_0_n_n_0_1_1 d (asIndex (wrapped dst)))

/-- The pooled head: node rows summed per graph, two dense layers, the first clamped at zero. -/
def head (h2 : FVec Ideal S100000x64 .f32) (batch : IVec S100000 32) (wl1 : FVec Ideal S64x64 .f32) (bl1 : FVec Ideal S64 .f32)
    (wl2 : FVec Ideal S64x1 .f32) (bl2 : FVec Ideal S1 .f32) : FVec Ideal S128 .f32 :=
  shapeCast S128 (addf
    (Host.dotGeneral dot_S128x64_S64x1_S128x1_1_0_0_1_n_n none
      (maximumf
        (addf
          (Host.dotGeneral dot_S128x64_S64x64_S128x64_1_0_0_1_n_n none
            (Host.scatterAdd scatter_S128x64_S100000x1_S100000x64_1_0_0_1 (broadcastInDim S128x64 ![] bcast_S_S128x64 (constant S_ .f32 0x00000000#32))
              (broadcastInDim S100000x1 ![0] bcast_S100000_S100000x1_0 batch) h2)
            wl1)
          (broadcastInDim S128x64 ![0, 1] bcast_S1x64_S128x64_0_1 (broadcastInDim S1x64 ![1] bcast_S64_S1x64_1 bl1)))
        (broadcastInDim S128x64 ![] bcast_S_S128x64 (constant S_ .f32 0x00000000#32)))
      wl2)
    (broadcastInDim S128x1 ![0, 1] bcast_S1x1_S128x1_0_1 (broadcastInDim S1x1 ![1] bcast_S1_S1x1_1 bl2)))
    shapeCasts_S128x1_S128

/-- The inverse square root of the degree: one, plus one per edge whose wrapped target is the node. -/
def invSqrtDeg (dst : IVec S1000000 32) : FVec Ideal S100000 .f32 :=
  Host.rsqrt (Host.scatterAdd scatter_S100000_S1000000x1_S1000000_n_0_0_1 (broadcastInDim S100000 ![] bcast_S_S100000 (constant S_ .f32 0x3F800000#32))
    (asIndex (wrapped dst)) (broadcastInDim S1000000 ![] bcast_S_S1000000 (constant S_ .f32 0x3F800000#32)))

/-- One layer from its transformed features. -/
def layer (t : FVec Ideal S100000x64 .f32) (b : FVec Ideal S64 .f32) (src dst : IVec S1000000 32) (d : FVec Ideal S100000 .f32) :
    FVec Ideal S100000x64 .f32 :=
  maximumf
    (addf
      (addf
        (Host.scatterAdd scatter_S100000x64_S1000000x1_S1000000x64_1_0_0_1 (broadcastInDim S100000x64 ![] bcast_S_S100000x64 (constant S_ .f32 0x00000000#32))
          (asIndex (wrapped dst))
          (mulf (gatherRows t src)
            (broadcastInDim S1000000x64 ![0, 1] bcast_S1000000x1_S1000000x64_0_1 (broadcastInDim S1000000x1 ![0] bcast_S1000000_S1000000x1_0 (edgeWeights d src dst)))))
        (mulf t (broadcastInDim S100000x64 ![0, 1] bcast_S100000x1_S100000x64_0_1 (broadcastInDim S100000x1 ![0] bcast_S100000_S100000x1_0 (mulf d d)))))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The reference's result as a function of its eleven arguments. -/
def result (x : FVec Ideal S100000x128 .f32) (ei : IVec S2x1000000 32) (batch : IVec S100000 32) (w1 : FVec Ideal S128x64 .f32)
    (b1 : FVec Ideal S64 .f32) (w2 : FVec Ideal S64x64 .f32) (b2 : FVec Ideal S64 .f32) (wl1 : FVec Ideal S64x64 .f32)
    (bl1 : FVec Ideal S64 .f32) (wl2 : FVec Ideal S64x1 .f32) (bl2 : FVec Ideal S1 .f32) : FVec Ideal S128 .f32 :=
  head
    (layer
      (Host.dotGeneral dot_S100000x64_S64x64_S100000x64_1_0_0_1_n_n none
        (layer (Host.dotGeneral dot_S100000x128_S128x64_S100000x64_1_0_0_1_n_n none x w1) b1 (sources ei) (targets ei) (invSqrtDeg (targets ei)))
        w2)
      b2 (sources ei) (targets ei) (invSqrtDeg (targets ei)))
    batch wl1 bl1 wl2 bl2

set_option maxHeartbeats 4000000 in
/-- The run's result term is that composition of the arguments' launch contents. -/
theorem res_eq (m : (ℓ : Loc nD τ sig) → Buf (Elt Ideal) ℓ) (c : Dev nD) :
    Cert.ReferenceIdeal.Value.res_main_v112 m c
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v112
  rfl

end Cert.ReferenceIdeal.Stages

end
-- ==== Proof.BridgeStages.lean ====
/-
  The stages the two programs share, and the three places where they are arranged differently but equal.
  * The edge-list rows, the negative-index wrap, the index column, the row gather, the edge weights and the pooled head
    are the same operations in both programs' vocabularies.
  * The second layer's scaling and combine calls compute the same functions as the first layer's.
  * The inverse-square-root degree: the kernel counts the edges landing on a node into zeros and then adds one, the
    reference counts them into ones; (0 + count) + 1 = 1 + count on the extended reals, and both count at the same
    wrapped targets.
  * A dense transform: the kernel's product array and the host's matrix product are the same sum over k.
-/
import proofs.«121682_j31825707663693_2_alg».proof.Proof.KernelStages
import proofs.«121682_j31825707663693_2_alg».proof.Proof.ReferenceStages
import proofs.«121682_j31825707663693_2_alg».proof.Proof.FeatureMatmul0
import proofs.«121682_j31825707663693_2_alg».proof.Proof.FeatureMatmul3
import proofs.«121682_j31825707663693_2_alg».proof.Proof.EdgeScale1
import proofs.«121682_j31825707663693_2_alg».proof.Proof.EdgeScale4
import proofs.«121682_j31825707663693_2_alg».proof.Proof.NodeCombine2
import proofs.«121682_j31825707663693_2_alg».proof.Proof.NodeCombine5
import proofs.«121682_j31825707663693_2_alg».proof.Proof.Gen.ReferenceIdeal.Read
import Idealize.ShloMosaic.PureOps.Ideal.Laws
import Idealize.ShloMosaic.Lib.ValueIdx
import Idealize.ShloMosaic.Lib.Pipeline.Value

set_option maxRecDepth 16384

noncomputable section

namespace Cert.Gcn.BridgeStages

open Idealize.ShloMosaic Idealize.ShloMosaic.ValueIdx

/-! ## The same stages in the two programs' vocabularies -/

theorem sources_eq (ei : IVec Cert.KernelIdeal.S2x1000000 32) : Cert.KernelIdeal.Stages.sources ei = Cert.ReferenceIdeal.Stages.sources ei := rfl
theorem targets_eq (ei : IVec Cert.KernelIdeal.S2x1000000 32) : Cert.KernelIdeal.Stages.targets ei = Cert.ReferenceIdeal.Stages.targets ei := rfl
theorem wrapped_eq (d : IVec Cert.KernelIdeal.S1000000 32) : Cert.KernelIdeal.Stages.wrapped d = Cert.ReferenceIdeal.Stages.wrapped d := rfl
theorem asIndex_eq (d : IVec Cert.KernelIdeal.S1000000 32) : Cert.KernelIdeal.Stages.asIndex d = Cert.ReferenceIdeal.Stages.asIndex d := rfl
theorem gatherRows_eq (h : FVec Ideal Cert.KernelIdeal.S100000x64 .f32) (s : IVec Cert.KernelIdeal.S1000000 32) : Cert.KernelIdeal.Stages.gatherRows h s = Cert.ReferenceIdeal.Stages.gatherRows h s := rfl
theorem edgeWeights_eq (d : FVec Ideal Cert.KernelIdeal.S100000 .f32) (s t : IVec Cert.KernelIdeal.S1000000 32) : Cert.KernelIdeal.Stages.edgeWeights d s t = Cert.ReferenceIdeal.Stages.edgeWeights d s t := rfl
theorem head_eq (h2 : FVec Ideal Cert.KernelIdeal.S100000x64 .f32) (batch : IVec Cert.KernelIdeal.S100000 32) (wl1 : FVec Ideal Cert.KernelIdeal.S64x64 .f32)
    (bl1 : FVec Ideal Cert.KernelIdeal.S64 .f32) (wl2 : FVec Ideal Cert.KernelIdeal.S64x1 .f32) (bl2 : FVec Ideal Cert.KernelIdeal.S1 .f32) :
    Cert.KernelIdeal.Stages.head h2 batch wl1 bl1 wl2 bl2 = Cert.ReferenceIdeal.Stages.head h2 batch wl1 bl1 wl2 bl2 := rfl

/-! ## The second layer's calls compute the first layer's functions -/

theorem scaled4_eq : @Cert.KernelIdeal.EdgeScale4.scaled = @Cert.KernelIdeal.EdgeScale1.scaled := rfl
theorem combined5_eq : @Cert.KernelIdeal.NodeCombine5.combined = @Cert.KernelIdeal.NodeCombine2.combined := rfl

/-! ## The degree -/

/-- A scatter-add into an array that is zero everywhere, with an array `o` added afterwards, is the scatter-add of the
    same updates into `o`: at each entry (0 + landed) + o = o + landed. Stated over any shapes. -/
theorem scatterAdd_zero_then_add {s si su : Shape} (d : ScatterDims s si su) {w : ℕ} (idx : IVec si w) (u : FVec Ideal su .f32)
    (z o : FVec Ideal s .f32) (hz : ∀ n, z n = 0) :
    addf (Host.scatterAdd d z idx u) o = Host.scatterAdd d o idx u := by
  funext n
  show Ideal.hostScatterAdd d z idx u n + o n = Ideal.hostScatterAdd d o idx u n
  unfold Ideal.hostScatterAdd
  rw [hz n, zero_add, add_comm]

/-- (0 + count) + 1 = 1 + count. -/
theorem invSqrtDeg_eq (dst : IVec Cert.KernelIdeal.S1000000 32) : Cert.KernelIdeal.Stages.invSqrtDeg dst = Cert.ReferenceIdeal.Stages.invSqrtDeg dst := by
  unfold Cert.KernelIdeal.Stages.invSqrtDeg Cert.ReferenceIdeal.Stages.invSqrtDeg
  exact congrArg (Host.rsqrt (F := Ideal)) (scatterAdd_zero_then_add _ _ _ _ _ (fun _ => Ideal.ofBits_zero_f32))

/-! ## The dense transforms -/

/-- The host's matrix product of a [100000, 128] and a [128, 64] array at (r, c): the sum over k of left(r, k) · right(k, c). -/
theorem dot128_apply (y : FVec Ideal Cert.ReferenceIdeal.S100000x128 .f32) (w : FVec Ideal Cert.ReferenceIdeal.S128x64 .f32) (i : Cert.ReferenceIdeal.S100000x64.Idx) :
    Host.dotGeneral Cert.ReferenceIdeal.dot_S100000x128_S128x64_S100000x64_1_0_0_1_n_n none y w i = ∑ k : Fin 128, y (ix2 (i 0) k) * w (ix2 k (i 1)) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = ix2 (i 0) k := funext fun a => Fin.ext (by
    match a with
    | ⟨0, _⟩ => exact Cert.ReferenceIdeal.Read.lhs_main_v14_0 _ _
    | ⟨1, _⟩ => exact (Cert.ReferenceIdeal.Read.lhs_main_v14_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = ix2 k (i 1) := funext fun a => Fin.ext (by
    match a with
    | ⟨0, _⟩ => exact (Cert.ReferenceIdeal.Read.rhs_main_v14_0 _ _).trans hk
    | ⟨1, _⟩ => exact Cert.ReferenceIdeal.Read.rhs_main_v14_1 _ _)
  rw [el, er] <;> rfl

/-- The host's matrix product of a [100000, 64] and a [64, 64] array at (r, c): the sum over k of left(r, k) · right(k, c). -/
theorem dot64_apply (y : FVec Ideal Cert.ReferenceIdeal.S100000x64 .f32) (w : FVec Ideal Cert.ReferenceIdeal.S64x64 .f32) (i : Cert.ReferenceIdeal.S100000x64.Idx) :
    Host.dotGeneral Cert.ReferenceIdeal.dot_S100000x64_S64x64_S100000x64_1_0_0_1_n_n none y w i = ∑ k : Fin 64, y (ix2 (i 0) k) * w (ix2 k (i 1)) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = ix2 (i 0) k := funext fun a => Fin.ext (by
    match a with
    | ⟨0, _⟩ => exact Cert.ReferenceIdeal.Read.lhs_main_v57_0 _ _
    | ⟨1, _⟩ => exact (Cert.ReferenceIdeal.Read.lhs_main_v57_1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = ix2 k (i 1) := funext fun a => Fin.ext (by
    match a with
    | ⟨0, _⟩ => exact (Cert.ReferenceIdeal.Read.rhs_main_v57_0 _ _).trans hk
    | ⟨1, _⟩ => exact Cert.ReferenceIdeal.Read.rhs_main_v57_1 _ _)
  rw [el, er] <;> rfl

theorem product0_eq (x : FVec Ideal Cert.ReferenceIdeal.S100000x128 .f32) (w : FVec Ideal Cert.ReferenceIdeal.S128x64 .f32) :
    Cert.KernelIdeal.FeatureMatmul0.product x w = Host.dotGeneral Cert.ReferenceIdeal.dot_S100000x128_S128x64_S100000x64_1_0_0_1_n_n none x w :=
  funext fun i => (dot128_apply x w i).symm
theorem product3_eq (y : FVec Ideal Cert.ReferenceIdeal.S100000x64 .f32) (w : FVec Ideal Cert.ReferenceIdeal.S64x64 .f32) :
    Cert.KernelIdeal.FeatureMatmul3.product y w = Host.dotGeneral Cert.ReferenceIdeal.dot_S100000x64_S64x64_S100000x64_1_0_0_1_n_n none y w :=
  funext fun i => (dot64_apply y w i).symm

end Cert.Gcn.BridgeStages

end
-- ==== Proof.IndexWrap.lean ====
/-
  Negative-index wrap of an index vector. jnp's `x.at[idx]` and `x[idx]` first replace every negative entry
  `d` of the index vector by `d + n` (n the extent of the indexed axis): as a vector operation,
  `select (d < 0) (d + n) d`. Where every entry is already non-negative the comparison is false everywhere and the
  wrapped vector is the vector itself. Words are 32-bit two's complement and both comparisons are signed.
-/
import Idealize.ShloMosaic.PureOps

namespace Cert.Gcn.IndexWrap

open Idealize.ShloMosaic

theorem ofBool_eq_one (b : Bool) : BitVec.ofBool b = 1#1 ↔ b = true := by cases b <;> decide

/-- A word that is at least zero (signed) is not below zero (signed). -/
theorem not_slt_zero_of_sge_zero (w : BitVec 32) (h : IntOp.cmpi .sge w 0#32 = 1#1) : IntOp.cmpi .slt w 0#32 ≠ 1#1 := by
  unfold IntOp.cmpi at h ⊢
  rw [ofBool_eq_one] at h
  rw [Ne, ofBool_eq_one]
  simp only [BitVec.slt, BitVec.sle, decide_eq_true_eq] at h ⊢
  omega

variable {s : Shape}

/-- Where every entry of an index vector `d` is non-negative, the wrap `select (d < z) (d + n) d` against the zero
    vector `z` is `d`, whatever the extent vector `n`. -/
theorem wrap_eq_self (d z n : IVec s 32) (hz : ∀ e, z e = 0#32) (h : ∀ e, IntOp.cmpi .sge (d e) 0#32 = 1#1) :
    select (cmpi .slt d z) (addi d n) d = d := by
  funext e
  show Scalar.select (IntOp.cmpi .slt (d e) (z e)) (addi d n e) (d e) = d e
  rw [hz e]
  unfold Scalar.select
  exact if_neg (not_slt_zero_of_sge_zero (d e) (h e))

end Cert.Gcn.IndexWrap
-- ==== Proof.LibColumnRowRead.lean ====
/-
  Reading small layout changes of a vector at a pair of coordinates.
  * A length-a vector reshaped to an [a, 1] column, read at (p, 0), is the vector at p; reshaped to a [1, b] row, read at
    (0, q), it is the vector at q (the row-major position is the same).
  * A length-a vector broadcast to an [a, 1] column and then along b lanes, read at (p, c), is the vector at p (a ≠ 1, so
    the row axis is not a unit axis); a length-b vector broadcast to a [1, b] row and then along a rows, read at (p, c),
    is the vector at c (b ≠ 1).
-/
import Idealize.ShloMosaic.Lib.ValueIdx
import Idealize.ShloMosaic.Lib.Pipeline.Value

namespace Cert.Gcn.ColumnRowRead

open Idealize.ShloMosaic Idealize.ShloMosaic.ValueIdx

variable {α : Type}

/-- A vector as a column, read at (p, 0). -/
theorem column_apply {a : ℕ} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A vector as a row, read at (0, q). -/
theorem row_apply {b : ℕ} (v : (⟨1, ![b]⟩ : Shape).Idx → α) (h : (⟨1, ![b]⟩ : Shape).ShapeCasts ⟨2, ![1, b]⟩) (q : Fin b) :
    shapeCast ⟨2, ![1, b]⟩ v h (ix2 (0 : Fin 1) q) = v (ix1 q) :=
  shapeCast_apply v h (ix2 (0 : Fin 1) q) (ix1 q) (by
    rw [Shape.rowMajor_val_one, Shape.rowMajor_val_two]
    show q.val = 0 * b + q.val
    omega)

/-- A vector broadcast to a column and then along the lanes, read at (p, c). -/
theorem bcast_col_apply {a b : ℕ} (ha : a ≠ 1) (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 v) (ix2 p c) = v (ix1 p) := by
  rw [broadcastInDim_apply (![0, 1] : Fin 2 → Fin 2) h2 _ (ix2 p c) (ix2 p (0 : Fin 1)) (fun ax => by
    match ax with
    | ⟨0, _⟩ => show p.val = if a = 1 then 0 else p.val; rw [if_neg ha]
    | ⟨1, _⟩ => rfl)]
  exact broadcastInDim_apply (![0] : Fin 1 → Fin 2) h1 v (ix2 p (0 : Fin 1)) (ix1 p) (fun ax => by
    match ax with
    | ⟨0, _⟩ => show p.val = if a = 1 then 0 else p.val; rw [if_neg ha])

/-- A vector broadcast to a row and then along the rows, read at (p, c). -/
theorem bcast_row_apply {a b : ℕ} (hb : b ≠ 1) (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![1, b]⟩ (![1] : Fin 1 → Fin 2) h1 v) (ix2 p c) = v (ix1 c) := by
  rw [broadcastInDim_apply (![0, 1] : Fin 2 → Fin 2) h2 _ (ix2 p c) (ix2 (0 : Fin 1) c) (fun ax => by
    match ax with
    | ⟨0, _⟩ => rfl
    | ⟨1, _⟩ => show c.val = if b = 1 then 0 else c.val; rw [if_neg hb])]
  exact broadcastInDim_apply (![1] : Fin 1 → Fin 2) h1 v (ix2 (0 : Fin 1) c) (ix1 c) (fun ax => by
    match ax with
    | ⟨0, _⟩ => show c.val = if b = 1 then 0 else c.val; rw [if_neg hb])

end Cert.Gcn.ColumnRowRead
-- ==== Proof.BridgeLayer.lean ====
/-
  One layer of the network in the two programs, given the same transformed features t.
  * The scaled messages: the kernel multiplies row e of the gathered features by entry (e, 0) of the weight column, the
    reference by the weight vector broadcast to a column and along the lanes: both are the weight of edge e.
  * The aggregate: the same scatter-add of the same messages into zeros, the kernel at the targets and the reference at
    the wrapped targets — the same index vector where no target is negative.
  * The combine step: the kernel's max((agg + t · (d(r,0) · d(r,0))) + b(0,c), 0) is the reference's maximum, sums and
    products of the broadcast vectors, entry by entry.
-/
import proofs.«121682_j31825707663693_2_alg».proof.Proof.KernelStages
import proofs.«121682_j31825707663693_2_alg».proof.Proof.ReferenceStages
import proofs.«121682_j31825707663693_2_alg».proof.Proof.FeatureMatmul0
import proofs.«121682_j31825707663693_2_alg».proof.Proof.FeatureMatmul3
import proofs.«121682_j31825707663693_2_alg».proof.Proof.EdgeScale1
import proofs.«121682_j31825707663693_2_alg».proof.Proof.EdgeScale4
import proofs.«121682_j31825707663693_2_alg».proof.Proof.NodeCombine2
import proofs.«121682_j31825707663693_2_alg».proof.Proof.NodeCombine5
import proofs.«121682_j31825707663693_2_alg».proof.Proof.IndexWrap
import proofs.«121682_j31825707663693_2_alg».proof.Proof.LibColumnRowRead
import Idealize.ShloMosaic.Lib.ValueIdx
import Idealize.ShloMosaic.Lib.Pipeline.Value

set_option maxRecDepth 16384

noncomputable section

namespace Cert.Gcn.BridgeLayer

open Idealize.ShloMosaic Idealize.ShloMosaic.ValueIdx Cert.Gcn.ColumnRowRead

/-! ## One layer -/

/-- The scaled messages are the gathered rows times the broadcast weights. -/
theorem messages_eq (t : FVec Ideal Cert.KernelIdeal.S100000x64 .f32) (src dst : IVec Cert.KernelIdeal.S1000000 32) (d : FVec Ideal Cert.KernelIdeal.S100000 .f32) :
    Cert.KernelIdeal.EdgeScale1.scaled (Cert.KernelIdeal.Stages.gatherRows t src) (Cert.KernelIdeal.Stages.edgeColumn (Cert.KernelIdeal.Stages.edgeWeights d src dst))
      = mulf (Cert.ReferenceIdeal.Stages.gatherRows t src)
          (broadcastInDim Cert.ReferenceIdeal.S1000000x64 ![0, 1] Cert.ReferenceIdeal.Gen.bcast_S1000000x1_S1000000x64_0_1
            (broadcastInDim Cert.ReferenceIdeal.S1000000x1 ![0] Cert.ReferenceIdeal.Gen.bcast_S1000000_S1000000x1_0 (Cert.ReferenceIdeal.Stages.edgeWeights d src dst))) := by
  funext j
  obtain ⟨e, q, rfl⟩ : ∃ (e : Fin 1000000) (q : Fin 64), j = ix2 e q := ⟨j 0, j 1, eq_ix2 j⟩
  unfold Cert.KernelIdeal.EdgeScale1.scaled Cert.KernelIdeal.Stages.edgeColumn
  show Cert.KernelIdeal.Stages.gatherRows t src (ix2 e q) * shapeCast _ (Cert.KernelIdeal.Stages.edgeWeights d src dst) _ (ix2 e (0 : Fin 1))
    = Cert.ReferenceIdeal.Stages.gatherRows t src (ix2 e q) * broadcastInDim _ _ _ (broadcastInDim _ _ _ (Cert.ReferenceIdeal.Stages.edgeWeights d src dst)) (ix2 e q)
  rw [column_apply, bcast_col_apply (by decide)]
  rfl

/-- The combine step is the reference's maximum of sums and products of broadcasts. -/
theorem combined_eq (agg t : FVec Ideal Cert.KernelIdeal.S100000x64 .f32) (d : FVec Ideal Cert.KernelIdeal.S100000 .f32) (b : FVec Ideal Cert.KernelIdeal.S64 .f32) :
    Cert.KernelIdeal.NodeCombine2.combined agg t (Cert.KernelIdeal.Stages.nodeColumn d) (Cert.KernelIdeal.Stages.biasRow b)
      = maximumf
          (addf
            (addf agg
              (mulf t (broadcastInDim Cert.ReferenceIdeal.S100000x64 ![0, 1] Cert.ReferenceIdeal.Gen.bcast_S100000x1_S100000x64_0_1
                (broadcastInDim Cert.ReferenceIdeal.S100000x1 ![0] Cert.ReferenceIdeal.Gen.bcast_S100000_S100000x1_0 (mulf d d)))))
            (broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 b)))
          (broadcastInDim Cert.ReferenceIdeal.S100000x64 ![] Cert.ReferenceIdeal.Gen.bcast_S_S100000x64 (constant Cert.ReferenceIdeal.S_ .f32 0x00000000#32)) := by
  funext i
  obtain ⟨r, q, rfl⟩ : ∃ (r : Fin 100000) (q : Fin 64), i = ix2 r q := ⟨i 0, i 1, eq_ix2 i⟩
  unfold Cert.KernelIdeal.NodeCombine2.combined Cert.KernelIdeal.Stages.nodeColumn Cert.KernelIdeal.Stages.biasRow
  show max ((agg (ix2 r q) + t (ix2 r q) * (shapeCast _ d _ (ix2 r (0 : Fin 1)) * shapeCast _ d _ (ix2 r (0 : Fin 1))))
        + shapeCast _ b _ (ix2 (0 : Fin 1) q)) (Ideal.ofBits .f32 0x00000000#32)
    = max ((agg (ix2 r q) + t (ix2 r q) * broadcastInDim _ _ _ (broadcastInDim _ _ _ (mulf d d)) (ix2 r q))
        + broadcastInDim _ _ _ (broadcastInDim _ _ _ b) (ix2 r q)) (Ideal.ofBits .f32 0x00000000#32)
  rw [column_apply, row_apply, bcast_col_apply (by decide), bcast_row_apply (by decide)]
  rfl

/-- One whole layer, where no target is negative. -/
theorem layer_eq (t : FVec Ideal Cert.KernelIdeal.S100000x64 .f32) (b : FVec Ideal Cert.KernelIdeal.S64 .f32) (src dst : IVec Cert.KernelIdeal.S1000000 32)
    (d : FVec Ideal Cert.KernelIdeal.S100000 .f32) (hdst : ∀ e, IntOp.cmpi .sge (dst e) 0#32 = 1#1) :
    Cert.KernelIdeal.NodeCombine2.combined
        (Cert.KernelIdeal.Stages.aggregate dst (Cert.KernelIdeal.EdgeScale1.scaled (Cert.KernelIdeal.Stages.gatherRows t src) (Cert.KernelIdeal.Stages.edgeColumn (Cert.KernelIdeal.Stages.edgeWeights d src dst))))
        t (Cert.KernelIdeal.Stages.nodeColumn d) (Cert.KernelIdeal.Stages.biasRow b)
      = Cert.ReferenceIdeal.Stages.layer t b src dst d := by
  have hw : Cert.ReferenceIdeal.Stages.wrapped dst = dst := Cert.Gcn.IndexWrap.wrap_eq_self dst _ _ (fun _ => rfl) hdst
  rw [combined_eq, messages_eq]
  unfold Cert.ReferenceIdeal.Stages.layer Cert.KernelIdeal.Stages.aggregate
  rw [hw]
  rfl

end Cert.Gcn.BridgeLayer

end
-- ==== Proof.Bridge.lean ====
/-
  The kernel's value and the reference's value are one function of the arguments, where every edge's target node is at
  least zero: the kernel's composition of stages — product, gather, scale, aggregate, combine, twice, then the pooled head —
  is rewritten, stage by stage, into the reference's.
-/
import proofs.«121682_j31825707663693_2_alg».proof.Proof.KernelStages
import proofs.«121682_j31825707663693_2_alg».proof.Proof.ReferenceStages
import proofs.«121682_j31825707663693_2_alg».proof.Proof.FeatureMatmul0
import proofs.«121682_j31825707663693_2_alg».proof.Proof.FeatureMatmul3
import proofs.«121682_j31825707663693_2_alg».proof.Proof.EdgeScale1
import proofs.«121682_j31825707663693_2_alg».proof.Proof.EdgeScale4
import proofs.«121682_j31825707663693_2_alg».proof.Proof.NodeCombine2
import proofs.«121682_j31825707663693_2_alg».proof.Proof.NodeCombine5
import proofs.«121682_j31825707663693_2_alg».proof.Proof.BridgeStages
import proofs.«121682_j31825707663693_2_alg».proof.Proof.BridgeLayer

set_option maxRecDepth 16384

noncomputable section

namespace Cert.Gcn.Bridge

open Idealize.ShloMosaic Idealize.ShloMosaic.ValueIdx Cert.Gcn.BridgeStages Cert.Gcn.BridgeLayer

/-! ## The whole result -/

/-- The kernel program's result as a function of its eleven arguments. -/
def kernelResult (x : FVec Ideal Cert.KernelIdeal.S100000x128 .f32) (ei : IVec Cert.KernelIdeal.S2x1000000 32) (batch : IVec Cert.KernelIdeal.S100000 32)
    (w1 : FVec Ideal Cert.KernelIdeal.S128x64 .f32) (b1 : FVec Ideal Cert.KernelIdeal.S64 .f32) (w2 : FVec Ideal Cert.KernelIdeal.S64x64 .f32) (b2 : FVec Ideal Cert.KernelIdeal.S64 .f32)
    (wl1 : FVec Ideal Cert.KernelIdeal.S64x64 .f32) (bl1 : FVec Ideal Cert.KernelIdeal.S64 .f32) (wl2 : FVec Ideal Cert.KernelIdeal.S64x1 .f32) (bl2 : FVec Ideal Cert.KernelIdeal.S1 .f32) :
    FVec Ideal Cert.KernelIdeal.S128 .f32 :=
  Cert.KernelIdeal.Stages.head
    (Cert.KernelIdeal.NodeCombine5.combined
      (Cert.KernelIdeal.Stages.aggregate (Cert.KernelIdeal.Stages.targets ei)
        (Cert.KernelIdeal.EdgeScale4.scaled
          (Cert.KernelIdeal.Stages.gatherRows
            (Cert.KernelIdeal.FeatureMatmul3.product
              (Cert.KernelIdeal.NodeCombine2.combined
                (Cert.KernelIdeal.Stages.aggregate (Cert.KernelIdeal.Stages.targets ei)
                  (Cert.KernelIdeal.EdgeScale1.scaled (Cert.KernelIdeal.Stages.gatherRows (Cert.KernelIdeal.FeatureMatmul0.product x w1) (Cert.KernelIdeal.Stages.sources ei))
                    (Cert.KernelIdeal.Stages.edgeColumn (Cert.KernelIdeal.Stages.edgeWeights (Cert.KernelIdeal.Stages.invSqrtDeg (Cert.KernelIdeal.Stages.targets ei)) (Cert.KernelIdeal.Stages.sources ei) (Cert.KernelIdeal.Stages.targets ei)))))
                (Cert.KernelIdeal.FeatureMatmul0.product x w1) (Cert.KernelIdeal.Stages.nodeColumn (Cert.KernelIdeal.Stages.invSqrtDeg (Cert.KernelIdeal.Stages.targets ei))) (Cert.KernelIdeal.Stages.biasRow b1))
              w2)
            (Cert.KernelIdeal.Stages.sources ei))
          (Cert.KernelIdeal.Stages.edgeColumn (Cert.KernelIdeal.Stages.edgeWeights (Cert.KernelIdeal.Stages.invSqrtDeg (Cert.KernelIdeal.Stages.targets ei)) (Cert.KernelIdeal.Stages.sources ei) (Cert.KernelIdeal.Stages.targets ei)))))
      (Cert.KernelIdeal.FeatureMatmul3.product
        (Cert.KernelIdeal.NodeCombine2.combined
          (Cert.KernelIdeal.Stages.aggregate (Cert.KernelIdeal.Stages.targets ei)
            (Cert.KernelIdeal.EdgeScale1.scaled (Cert.KernelIdeal.Stages.gatherRows (Cert.KernelIdeal.FeatureMatmul0.product x w1) (Cert.KernelIdeal.Stages.sources ei))
              (Cert.KernelIdeal.Stages.edgeColumn (Cert.KernelIdeal.Stages.edgeWeights (Cert.KernelIdeal.Stages.invSqrtDeg (Cert.KernelIdeal.Stages.targets ei)) (Cert.KernelIdeal.Stages.sources ei) (Cert.KernelIdeal.Stages.targets ei)))))
          (Cert.KernelIdeal.FeatureMatmul0.product x w1) (Cert.KernelIdeal.Stages.nodeColumn (Cert.KernelIdeal.Stages.invSqrtDeg (Cert.KernelIdeal.Stages.targets ei))) (Cert.KernelIdeal.Stages.biasRow b1))
        w2)
      (Cert.KernelIdeal.Stages.nodeColumn (Cert.KernelIdeal.Stages.invSqrtDeg (Cert.KernelIdeal.Stages.targets ei))) (Cert.KernelIdeal.Stages.biasRow b2))
    batch wl1 bl1 wl2 bl2

/-- Where every edge's target is at least zero, the two programs' results are equal. -/
theorem result_eq (x : FVec Ideal Cert.KernelIdeal.S100000x128 .f32) (ei : IVec Cert.KernelIdeal.S2x1000000 32) (batch : IVec Cert.KernelIdeal.S100000 32)
    (w1 : FVec Ideal Cert.KernelIdeal.S128x64 .f32) (b1 : FVec Ideal Cert.KernelIdeal.S64 .f32) (w2 : FVec Ideal Cert.KernelIdeal.S64x64 .f32) (b2 : FVec Ideal Cert.KernelIdeal.S64 .f32)
    (wl1 : FVec Ideal Cert.KernelIdeal.S64x64 .f32) (bl1 : FVec Ideal Cert.KernelIdeal.S64 .f32) (wl2 : FVec Ideal Cert.KernelIdeal.S64x1 .f32) (bl2 : FVec Ideal Cert.KernelIdeal.S1 .f32)
    (hdst : ∀ e, IntOp.cmpi .sge (Cert.KernelIdeal.Stages.targets ei e) 0#32 = 1#1) :
    kernelResult x ei batch w1 b1 w2 b2 wl1 bl1 wl2 bl2 = Cert.ReferenceIdeal.Stages.result x ei batch w1 b1 w2 b2 wl1 bl1 wl2 bl2 := by
  unfold kernelResult Cert.ReferenceIdeal.Stages.result
  rw [combined5_eq, scaled4_eq, head_eq]
  rw [layer_eq _ b1 _ _ _ hdst, layer_eq _ b2 _ _ _ hdst]
  rw [product0_eq, product3_eq, invSqrtDeg_eq]
  rfl

end Cert.Gcn.Bridge

end
-- ==== Proof.KernelHead.lean ====
/-
  The kernel program's result as a function of its arguments. After the sixth call three stretches of host operations
  remain: the node rows of the second layer's output are added up per graph at the batch vector; a dense layer with
  bias, clamped at zero; a second dense layer with bias; the [128, 1] array as a 128-vector. Together they are the pooled
  head of the second layer's output. The five arguments they read are carried from the launch across every boundary
  before them. Substituting what each boundary holds, the result buffer ends at the kernel's composition of stages of
  the eleven launch arrays.
-/
import proofs.«121682_j31825707663693_2_alg».proof.Proof.KernelLayer2
import proofs.«121682_j31825707663693_2_alg».proof.Proof.Bridge

set_option maxRecDepth 16384

noncomputable section

namespace Cert.KernelIdeal.Head

open Cert.KernelIdeal Cert.KernelIdeal.Gen Cert.KernelIdeal.Stages
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

open Cert.KernelIdeal.Layer1 Cert.KernelIdeal.Layer2

/-! ## Arguments carried back across a boundary -/

theorem back11_arg2 : W11 m ρ c (Proc.devRef .tc main_arg2) = W10 m ρ c (Proc.devRef .tc main_arg2) := W11_of_ne m ρ c main_arg2 (by decide)
theorem back10_arg2 : W10 m ρ c (Proc.devRef .tc main_arg2) = W9 m ρ c (Proc.devRef .tc main_arg2) := by host_skip
theorem back9_arg2 : W9 m ρ c (Proc.devRef .tc main_arg2) = W8 m ρ c (Proc.devRef .tc main_arg2) := W9_of_ne m ρ c main_arg2 (by decide)
theorem back8_arg2 : W8 m ρ c (Proc.devRef .tc main_arg2) = W7 m ρ c (Proc.devRef .tc main_arg2) := by host_skip
theorem back7_arg2 : W7 m ρ c (Proc.devRef .tc main_arg2) = W6 m ρ c (Proc.devRef .tc main_arg2) := W7_of_ne m ρ c main_arg2 (by decide)
theorem back6_arg2 : W6 m ρ c (Proc.devRef .tc main_arg2) = W5 m ρ c (Proc.devRef .tc main_arg2) := W6_of_ne m ρ c main_arg2 (by decide)
theorem back5_arg2 : W5 m ρ c (Proc.devRef .tc main_arg2) = W4 m ρ c (Proc.devRef .tc main_arg2) := by host_skip
theorem back4_arg2 : W4 m ρ c (Proc.devRef .tc main_arg2) = W3 m ρ c (Proc.devRef .tc main_arg2) := W4_of_ne m ρ c main_arg2 (by decide)
theorem back3_arg2 : W3 m ρ c (Proc.devRef .tc main_arg2) = W2 m ρ c (Proc.devRef .tc main_arg2) := by host_skip
theorem back2_arg2 : W2 m ρ c (Proc.devRef .tc main_arg2) = W1 m ρ c (Proc.devRef .tc main_arg2) := W2_of_ne m ρ c main_arg2 (by decide)
theorem back1_arg2 : W1 m ρ c (Proc.devRef .tc main_arg2) = W0 m ρ c (Proc.devRef .tc main_arg2) := by host_skip
theorem back11_arg7 : W11 m ρ c (Proc.devRef .tc main_arg7) = W10 m ρ c (Proc.devRef .tc main_arg7) := W11_of_ne m ρ c main_arg7 (by decide)
theorem back10_arg7 : W10 m ρ c (Proc.devRef .tc main_arg7) = W9 m ρ c (Proc.devRef .tc main_arg7) := by host_skip
theorem back9_arg7 : W9 m ρ c (Proc.devRef .tc main_arg7) = W8 m ρ c (Proc.devRef .tc main_arg7) := W9_of_ne m ρ c main_arg7 (by decide)
theorem back8_arg7 : W8 m ρ c (Proc.devRef .tc main_arg7) = W7 m ρ c (Proc.devRef .tc main_arg7) := by host_skip
theorem back7_arg7 : W7 m ρ c (Proc.devRef .tc main_arg7) = W6 m ρ c (Proc.devRef .tc main_arg7) := W7_of_ne m ρ c main_arg7 (by decide)
theorem back6_arg7 : W6 m ρ c (Proc.devRef .tc main_arg7) = W5 m ρ c (Proc.devRef .tc main_arg7) := W6_of_ne m ρ c main_arg7 (by decide)
theorem back5_arg7 : W5 m ρ c (Proc.devRef .tc main_arg7) = W4 m ρ c (Proc.devRef .tc main_arg7) := by host_skip
theorem back4_arg7 : W4 m ρ c (Proc.devRef .tc main_arg7) = W3 m ρ c (Proc.devRef .tc main_arg7) := W4_of_ne m ρ c main_arg7 (by decide)
theorem back3_arg7 : W3 m ρ c (Proc.devRef .tc main_arg7) = W2 m ρ c (Proc.devRef .tc main_arg7) := by host_skip
theorem back2_arg7 : W2 m ρ c (Proc.devRef .tc main_arg7) = W1 m ρ c (Proc.devRef .tc main_arg7) := W2_of_ne m ρ c main_arg7 (by decide)
theorem back1_arg7 : W1 m ρ c (Proc.devRef .tc main_arg7) = W0 m ρ c (Proc.devRef .tc main_arg7) := by host_skip
theorem back11_arg8 : W11 m ρ c (Proc.devRef .tc main_arg8) = W10 m ρ c (Proc.devRef .tc main_arg8) := W11_of_ne m ρ c main_arg8 (by decide)
theorem back10_arg8 : W10 m ρ c (Proc.devRef .tc main_arg8) = W9 m ρ c (Proc.devRef .tc main_arg8) := by host_skip
theorem back9_arg8 : W9 m ρ c (Proc.devRef .tc main_arg8) = W8 m ρ c (Proc.devRef .tc main_arg8) := W9_of_ne m ρ c main_arg8 (by decide)
theorem back8_arg8 : W8 m ρ c (Proc.devRef .tc main_arg8) = W7 m ρ c (Proc.devRef .tc main_arg8) := by host_skip
theorem back7_arg8 : W7 m ρ c (Proc.devRef .tc main_arg8) = W6 m ρ c (Proc.devRef .tc main_arg8) := W7_of_ne m ρ c main_arg8 (by decide)
theorem back6_arg8 : W6 m ρ c (Proc.devRef .tc main_arg8) = W5 m ρ c (Proc.devRef .tc main_arg8) := W6_of_ne m ρ c main_arg8 (by decide)
theorem back5_arg8 : W5 m ρ c (Proc.devRef .tc main_arg8) = W4 m ρ c (Proc.devRef .tc main_arg8) := by host_skip
theorem back4_arg8 : W4 m ρ c (Proc.devRef .tc main_arg8) = W3 m ρ c (Proc.devRef .tc main_arg8) := W4_of_ne m ρ c main_arg8 (by decide)
theorem back3_arg8 : W3 m ρ c (Proc.devRef .tc main_arg8) = W2 m ρ c (Proc.devRef .tc main_arg8) := by host_skip
theorem back2_arg8 : W2 m ρ c (Proc.devRef .tc main_arg8) = W1 m ρ c (Proc.devRef .tc main_arg8) := W2_of_ne m ρ c main_arg8 (by decide)
theorem back1_arg8 : W1 m ρ c (Proc.devRef .tc main_arg8) = W0 m ρ c (Proc.devRef .tc main_arg8) := by host_skip
theorem back11_arg9 : W11 m ρ c (Proc.devRef .tc main_arg9) = W10 m ρ c (Proc.devRef .tc main_arg9) := W11_of_ne m ρ c main_arg9 (by decide)
theorem back10_arg9 : W10 m ρ c (Proc.devRef .tc main_arg9) = W9 m ρ c (Proc.devRef .tc main_arg9) := by host_skip
theorem back9_arg9 : W9 m ρ c (Proc.devRef .tc main_arg9) = W8 m ρ c (Proc.devRef .tc main_arg9) := W9_of_ne m ρ c main_arg9 (by decide)
theorem back8_arg9 : W8 m ρ c (Proc.devRef .tc main_arg9) = W7 m ρ c (Proc.devRef .tc main_arg9) := by host_skip
theorem back7_arg9 : W7 m ρ c (Proc.devRef .tc main_arg9) = W6 m ρ c (Proc.devRef .tc main_arg9) := W7_of_ne m ρ c main_arg9 (by decide)
theorem back6_arg9 : W6 m ρ c (Proc.devRef .tc main_arg9) = W5 m ρ c (Proc.devRef .tc main_arg9) := W6_of_ne m ρ c main_arg9 (by decide)
theorem back5_arg9 : W5 m ρ c (Proc.devRef .tc main_arg9) = W4 m ρ c (Proc.devRef .tc main_arg9) := by host_skip
theorem back4_arg9 : W4 m ρ c (Proc.devRef .tc main_arg9) = W3 m ρ c (Proc.devRef .tc main_arg9) := W4_of_ne m ρ c main_arg9 (by decide)
theorem back3_arg9 : W3 m ρ c (Proc.devRef .tc main_arg9) = W2 m ρ c (Proc.devRef .tc main_arg9) := by host_skip
theorem back2_arg9 : W2 m ρ c (Proc.devRef .tc main_arg9) = W1 m ρ c (Proc.devRef .tc main_arg9) := W2_of_ne m ρ c main_arg9 (by decide)
theorem back1_arg9 : W1 m ρ c (Proc.devRef .tc main_arg9) = W0 m ρ c (Proc.devRef .tc main_arg9) := by host_skip
theorem back11_arg10 : W11 m ρ c (Proc.devRef .tc main_arg10) = W10 m ρ c (Proc.devRef .tc main_arg10) := W11_of_ne m ρ c main_arg10 (by decide)
theorem back10_arg10 : W10 m ρ c (Proc.devRef .tc main_arg10) = W9 m ρ c (Proc.devRef .tc main_arg10) := by host_skip
theorem back9_arg10 : W9 m ρ c (Proc.devRef .tc main_arg10) = W8 m ρ c (Proc.devRef .tc main_arg10) := W9_of_ne m ρ c main_arg10 (by decide)
theorem back8_arg10 : W8 m ρ c (Proc.devRef .tc main_arg10) = W7 m ρ c (Proc.devRef .tc main_arg10) := by host_skip
theorem back7_arg10 : W7 m ρ c (Proc.devRef .tc main_arg10) = W6 m ρ c (Proc.devRef .tc main_arg10) := W7_of_ne m ρ c main_arg10 (by decide)
theorem back6_arg10 : W6 m ρ c (Proc.devRef .tc main_arg10) = W5 m ρ c (Proc.devRef .tc main_arg10) := W6_of_ne m ρ c main_arg10 (by decide)
theorem back5_arg10 : W5 m ρ c (Proc.devRef .tc main_arg10) = W4 m ρ c (Proc.devRef .tc main_arg10) := by host_skip
theorem back4_arg10 : W4 m ρ c (Proc.devRef .tc main_arg10) = W3 m ρ c (Proc.devRef .tc main_arg10) := W4_of_ne m ρ c main_arg10 (by decide)
theorem back3_arg10 : W3 m ρ c (Proc.devRef .tc main_arg10) = W2 m ρ c (Proc.devRef .tc main_arg10) := by host_skip
theorem back2_arg10 : W2 m ρ c (Proc.devRef .tc main_arg10) = W1 m ρ c (Proc.devRef .tc main_arg10) := W2_of_ne m ρ c main_arg10 (by decide)
theorem back1_arg10 : W1 m ρ c (Proc.devRef .tc main_arg10) = W0 m ρ c (Proc.devRef .tc main_arg10) := by host_skip

/-! ## The last three stretches -/

set_option maxHeartbeats 8000000 in
theorem out_14 : W14 m ρ c (Proc.devRef .tc main_v89)
    = head (W11 m ρ c (Proc.devRef .tc main_v76)) (W11 m ρ c (Proc.devRef .tc main_arg2)) (W11 m ρ c (Proc.devRef .tc main_arg7)) (W11 m ρ c (Proc.devRef .tc main_arg8)) (W11 m ρ c (Proc.devRef .tc main_arg9)) (W11 m ρ c (Proc.devRef .tc main_arg10)) := by
  show StableHlo.after hostOps6_2 (StableHlo.after hostOps6_1 (StableHlo.after hostOps6 (W11 m ρ c))) (Proc.devRef .tc main_v89) = _
  after_results; rfl

/-- The result buffer at the last boundary is the kernel's function of the launch arrays. -/
theorem result : W14 m ρ c (Proc.devRef .tc main_v89)
    = Cert.Gcn.Bridge.kernelResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) := by
  rw [out_14, h2_11, (((((((((((back11_arg2 m ρ c).trans (back10_arg2 m ρ c)).trans (back9_arg2 m ρ c)).trans (back8_arg2 m ρ c)).trans (back7_arg2 m ρ c)).trans (back6_arg2 m ρ c)).trans (back5_arg2 m ρ c)).trans (back4_arg2 m ρ c)).trans (back3_arg2 m ρ c)).trans (back2_arg2 m ρ c)).trans (back1_arg2 m ρ c)), (((((((((((back11_arg7 m ρ c).trans (back10_arg7 m ρ c)).trans (back9_arg7 m ρ c)).trans (back8_arg7 m ρ c)).trans (back7_arg7 m ρ c)).trans (back6_arg7 m ρ c)).trans (back5_arg7 m ρ c)).trans (back4_arg7 m ρ c)).trans (back3_arg7 m ρ c)).trans (back2_arg7 m ρ c)).trans (back1_arg7 m ρ c)), (((((((((((back11_arg8 m ρ c).trans (back10_arg8 m ρ c)).trans (back9_arg8 m ρ c)).trans (back8_arg8 m ρ c)).trans (back7_arg8 m ρ c)).trans (back6_arg8 m ρ c)).trans (back5_arg8 m ρ c)).trans (back4_arg8 m ρ c)).trans (back3_arg8 m ρ c)).trans (back2_arg8 m ρ c)).trans (back1_arg8 m ρ c)), (((((((((((back11_arg9 m ρ c).trans (back10_arg9 m ρ c)).trans (back9_arg9 m ρ c)).trans (back8_arg9 m ρ c)).trans (back7_arg9 m ρ c)).trans (back6_arg9 m ρ c)).trans (back5_arg9 m ρ c)).trans (back4_arg9 m ρ c)).trans (back3_arg9 m ρ c)).trans (back2_arg9 m ρ c)).trans (back1_arg9 m ρ c)), (((((((((((back11_arg10 m ρ c).trans (back10_arg10 m ρ c)).trans (back9_arg10 m ρ c)).trans (back8_arg10 m ρ c)).trans (back7_arg10 m ρ c)).trans (back6_arg10 m ρ c)).trans (back5_arg10 m ρ c)).trans (back4_arg10 m ρ c)).trans (back3_arg10 m ρ c)).trans (back2_arg10 m ρ c)).trans (back1_arg10 m ρ c))]
  rfl

end Cert.KernelIdeal.Head

end
-- ==== Proof.lean ====
/-
  A two-layer graph convolution network over 100000 nodes and 1000000 edges, pooled into 128 graphs: a kernel program of
  six pipelined calls among host operations against a plain reference, at the exact extended-real reading of floats.

  Both programs compute, for h = x and then h = the first layer's output,
      layer(h) = max( scatter-add over edges e of (h W)[src e] · d[src e] · d[dst e] into row dst e
                      + (h W) · d² + b , 0 ),          d = 1 / sqrt(1 + in-degree),
  and then the pooled head (node rows summed per graph, two dense layers, the first clamped at zero). They differ in
  arrangement only: the kernel tiles h W, the scaling of the gathered rows and the final combine over blocks of rows,
  counts the degree into zeros and adds one afterwards, and scatters the messages at the targets as given, where the
  reference scatters at the targets after the negative-index wrap. The precondition says every float input is finite
  and every target is at least zero; under it the wrap changes nothing, and the two results are one function of the
  arguments. Finiteness is not used: the only laws needed are that 0 + a = a and a + b = b + a on the extended reals.

  The word-level kernel's and the idealized kernel's frames are the generated frame certificates; the reference's frame is
  its generated run with the result dropped; the idealization rewrote no operation. The value claim takes the kernel's run
  with its result at the last segment boundary's contents, evaluates that boundary through the six calls and the host
  operations between them, and meets the reference's run's result term.
-/
import proofs.«121682_j31825707663693_2_alg».proof.Defs
import proofs.«121682_j31825707663693_2_alg».proof.Proof.Gen.Kernel
import proofs.«121682_j31825707663693_2_alg».proof.Proof.Gen.Kernel.Skeleton
import proofs.«121682_j31825707663693_2_alg».proof.Proof.Gen.Kernel.Launch
import proofs.«121682_j31825707663693_2_alg».proof.Proof.Gen.Kernel.Points
import proofs.«121682_j31825707663693_2_alg».proof.Proof.Gen.Kernel.Frame
import proofs.«121682_j31825707663693_2_alg».proof.Proof.Gen.KernelIdeal
import proofs.«121682_j31825707663693_2_alg».proof.Proof.Gen.KernelIdeal.Skeleton
import proofs.«121682_j31825707663693_2_alg».proof.Proof.Gen.KernelIdeal.Launch
import proofs.«121682_j31825707663693_2_alg».proof.Proof.Gen.KernelIdeal.Points
import proofs.«121682_j31825707663693_2_alg».proof.Proof.Gen.KernelIdeal.Frame
import proofs.«121682_j31825707663693_2_alg».proof.Proof.Gen.ReferenceIdeal
import proofs.«121682_j31825707663693_2_alg».proof.Proof.Gen.ReferenceIdeal.Run
import proofs.«121682_j31825707663693_2_alg».proof.Proof.Gen.ReferenceIdeal.Read
import proofs.«121682_j31825707663693_2_alg».proof.Proof.Gen.Pre_finite_inputs
import proofs.«121682_j31825707663693_2_alg».proof.Proof.TargetsNonNeg
import proofs.«121682_j31825707663693_2_alg».proof.Proof.KernelRun
import proofs.«121682_j31825707663693_2_alg».proof.Proof.KernelHead
import proofs.«121682_j31825707663693_2_alg».proof.Proof.ReferenceStages
import proofs.«121682_j31825707663693_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 4000000 in
/-- From memories agreeing on the arguments, with every target at least zero, both programs end with the result the
    kernel's last segment boundary holds. -/
theorem algebraic : Cert.algebraic_KernelIdeal_ReferenceIdeal := by
  intro m ρ m' ρ' hpre hagree
  refine ⟨fun c => Cert.KernelIdeal.Gen.W14 m ρ c (Proc.devRef .tc Cert.KernelIdeal.main_v89), Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  show Cert.ReferenceIdeal.Value.res_main_v112 m' c
    = Cert.KernelIdeal.Gen.W14 m ρ c (Proc.devRef .tc Cert.KernelIdeal.main_v89)
  rw [Cert.ReferenceIdeal.Stages.res_eq, a0, a1, a2, a3, a4, a5, a6, a7, a8, a9, a10, Cert.KernelIdeal.Head.result]
  exact (Cert.Gcn.Bridge.result_eq _ _ _ _ _ _ _ _ _ _ _
    (fun e => Cert.Gcn.TargetsNonNeg.targets_nonneg _ _ _ _ _ _ _ _ _ _ _ (hpre c) e)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
